-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x512 .f32) (main_arg1 : IVec S2x800000 32) (main_arg2 : FVec F S512x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x512 : Shape := ⟨2, ![2000, 512]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩
abbrev S2000 : Shape := ⟨1, ![2000]⟩
abbrev S2000x1 : Shape := ⟨2, ![2000, 1]⟩

abbrev nBuf : Space → Nat
  | .hbm => 107
  | .vmem => 30
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S850000x1, .f32⟩
  | .hbm, ⟨53, _⟩ => ⟨S50000x128, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x128, .f32⟩
  | .hbm, ⟨82, _⟩ => ⟨S850000x128, .f32⟩
  | .hbm, ⟨83, _⟩ => ⟨S_, .f32⟩
  | .hbm, ⟨84, _⟩ => ⟨S50000x128, .f32⟩
  | .hbm, ⟨85, _⟩ => ⟨S850000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x64, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x64, .f32⟩
  | .hbm, ⟨99, _⟩ => ⟨S850000x64, .f32⟩
  | .hbm, ⟨100, _⟩ => ⟨S850000x64, .f32⟩
  | .hbm, ⟨101, _⟩ => ⟨S_, .f32⟩
  | .hbm, ⟨102, _⟩ => ⟨S50000x64, .f32⟩
  | .hbm, ⟨103, _⟩ => ⟨S850000x1, .i32⟩
  | .hbm, ⟨104, _⟩ => ⟨S50000x64, .f32⟩
  | .hbm, ⟨105, _⟩ => ⟨S1x64, .f32⟩
  | .hbm, ⟨106, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x128_S2000x128_1_0_0_1_n_n_wf : DotDims.WF S2000x512 S512x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S50000x64.size a
  hwx5_2 : ∀ i : grid5.Coords, EltTy.bits .f32 = 32 ∨ (Rect.block (s := S50000x64) S2000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S2000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 133
  | .vmem => 0
  | .smem => 0
  | _ => 0

abbrev hbmTy0_0 (i : Nat) : BufTy := match i % 128 with
  | 0 => ⟨S50000x512, .f32⟩
  | 1 => ⟨S2x800000, .i32⟩
  | 2 => ⟨S512x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S1x800000, .i32⟩
  | 9 => ⟨S800000, .i32⟩
  | 10 => ⟨S50000, .i32⟩
  | 11 => ⟨S850000, .i32⟩
  | 12 => ⟨S1x800000, .i32⟩
  | 13 => ⟨S800000, .i32⟩
  | 14 => ⟨S50000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000x128, .f32⟩
  | 85 => ⟨S850000x1, .f32⟩
  | 86 => ⟨S850000x128, .f32⟩
  | 87 => ⟨S850000x128, .f32⟩
  | 88 => ⟨S_, .f32⟩
  | 89 => ⟨S50000x128, .f32⟩
  | 90 => ⟨S850000x1, .i32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x64, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x64, .f32⟩
  | 108 => ⟨S850000x1, .f32⟩
  | 109 => ⟨S850000x64, .f32⟩
  | 110 => ⟨S850000x64, .f32⟩
  | 111 => ⟨S_, .f32⟩
  | 112 => ⟨S50000x64, .f32⟩
  | 113 => ⟨S850000x1, .i32⟩
  | 114 => ⟨S50000x64, .f32⟩
  | 115 => ⟨S1x64, .f32⟩
  | 116 => ⟨S50000x64, .f32⟩
  | 117 => ⟨S50000x64, .f32⟩
  | 118 => ⟨S_, .f32⟩
  | 119 => ⟨S50000, .f32⟩
  | 120 => ⟨S_, .f32⟩
  | 121 => ⟨S50000, .f32⟩
  | 122 => ⟨S50000, .f32⟩
  | 123 => ⟨S50000x1, .f32⟩
  | 124 => ⟨S50000x64, .f32⟩
  | 125 => ⟨S50000x64, .f32⟩
  | 126 => ⟨S50000x64, .f32⟩
  | 127 => ⟨S_, .f32⟩
  | _ => ⟨S50000x512, .f32⟩

abbrev hbmTy0_1 (i : Nat) : BufTy := match i % 128 with
  | 0 => ⟨S50000, .f32⟩
  | 1 => ⟨S50000x1, .f32⟩
  | 2 => ⟨S50000x1, .f32⟩
  | 3 => ⟨S50000x64, .f32⟩
  | 4 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_cst : Ref sig .tc := ⟨.hbm, 72, rfl⟩
abbrev main_call1_v0 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_call2_cst : Ref sig .tc := ⟨.hbm, 95, rfl⟩
abbrev main_call2_v0 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_c_14 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_15 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_call3_cst : Ref sig .tc := ⟨.hbm, 118, rfl⟩
abbrev main_call3_v0 : Ref sig .tc := ⟨.hbm, 119, rfl⟩
abbrev main_call3_cst_0 : Ref sig .tc := ⟨.hbm, 120, rfl⟩
abbrev main_call3_v1 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_v5 : Ref sig .tc := ⟨.hbm, 125, rfl⟩
abbrev main_call3_v6 : Ref sig .tc := ⟨.hbm, 126, rfl⟩
abbrev main_call3_cst_1 : Ref sig .tc := ⟨.hbm, 127, rfl⟩
abbrev main_call3_v7 : Ref sig .tc := ⟨.hbm, 128, rfl⟩
abbrev main_call3_v8 : Ref sig .tc := ⟨.hbm, 129, rfl⟩
abbrev main_call3_v9 : Ref sig .tc := ⟨.hbm, 130, rfl⟩
abbrev main_call3_v10 : Ref sig .tc := ⟨.hbm, 131, rfl⟩
abbrev main_v86 : Ref sig .tc := ⟨.hbm, 132, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel program's run with its RESULT named.

  @main is twelve segments: six stretches of host operations and six grid regions. The contents of every buffer at
  each segment boundary are a fold from the launch memory (a host stretch applies its operations; a region leaves
  each of its arrays at what its points' write-backs leave and every other buffer alone). Every weakly fair execution
  terminates with every unscoped buffer at the last boundary's contents; read at the result buffer this names the
  program's result as that fold, and read at an argument it gives the argument back as launched.
-/
import proofs.«128856_j5995774345733_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents (the fold `W12` through the twelve segments) and every argument as launched. -/
theorem run_result : θ_run defs (onTc (τ := τ) (main (F := F))) ⟨m, fun _ => 0, ρ⟩ (fun r => ∀ c : Dev nD,
      r.2.mem ((c.tc : Thread nD τ).loc main_v78) = W12 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v78 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.RunValue

end
-- ==== Proof.KernelGraph.lean ====
/-
  The graph side of the network, as functions of the edge list.

  The edge list `x1` is a [2, 800000] array of node numbers: row 0 the sources, row 1 the targets. Every node also
  gets a loop to itself, so the 850000 message edges are the listed ones followed by (n, n) for the 50000 nodes n
  (`edgeSource`, `edgeTarget`). A node's degree is the number of message edges that end at it (a sum of ones
  scattered to the targets); its weight is `1/√(max degree 1)` where the degree is positive and 0 elsewhere; a message
  edge weighs the product of its two ends' weights (`edgeWeight`, kept as one column). One round of message passing
  over node features `h` (`aggregate128`, `aggregate64`) gathers the source's row for every message edge (a negative
  row number counted from the end), scales it by the edge's weight and adds it into the target's row of a zero array.
-/
import proofs.«128856_j5995774345733_1_alg».proof.Proof.Gen.KernelIdeal
import Idealize.ShloMosaic.PureOps.Ideal

noncomputable section

namespace Cert.KernelIdeal.HostValue

open Cert.KernelIdeal Cert.KernelIdeal.Facts₀ Cert.KernelIdeal.Facts Idealize.ShloMosaic

variable {F : FTy → Type} [FloatOps F]

/-- The message edges' sources: the listed sources, then every node once. -/
def edgeSource (x1 : (⟨S2x800000, .i32⟩ : BufTy).Contents (Elt F)) : (⟨S850000, .i32⟩ : BufTy).Contents (Elt F) :=
  concatenate S850000 0 [⟨S800000, shapeCast _ (extractStridedSlice S1x800000 ![0, 0] x1 slices_S2x800000_S1x800000_0_0) shapeCasts_S1x800000_S800000⟩, ⟨S50000, iotaInDim S50000 32 0⟩] concatenates_S800000_S50000_S850000_d0

/-- The message edges' targets: the listed targets, then every node once. -/
def edgeTarget (x1 : (⟨S2x800000, .i32⟩ : BufTy).Contents (Elt F)) : (⟨S850000, .i32⟩ : BufTy).Contents (Elt F) :=
  concatenate S850000 0 [⟨S800000, shapeCast _ (extractStridedSlice S1x800000 ![1, 0] x1 slices_S2x800000_S1x800000_1_0) shapeCasts_S1x800000_S800000⟩, ⟨S50000, iotaInDim S50000 32 0⟩] concatenates_S800000_S50000_S850000_d0

/-- Row numbers as a gather takes them: a negative one counted from the end (50000 added), kept as a column. -/
def rowColumn (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- A node's degree: ones added at every message edge's target. -/
def degree (d : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32))
    (broadcastInDim S850000x1 ![0] bcast_S850000_S850000x1_0 d) (broadcastInDim S850000 ![] bcast_S_S850000 (constant S_ .f32 0x3F800000#32))

/-- A node's weight: `1/√(max degree 1)` where the degree is positive, 0 elsewhere. -/
def nodeWeight (d : (⟨S850000, .i32⟩ : BufTy).Contents (Elt F)) : (⟨S50000, .f32⟩ : BufTy).Contents (Elt F) :=
  select (cmpf .ogt (degree d) (broadcastInDim S50000 ![] bcast_S_S50000 (constant S_ .f32 0x00000000#32)))
    (Host.rsqrt (maximumf (degree d) (broadcastInDim S50000 ![] bcast_S_S50000 (constant S_ .f32 0x3F800000#32))))
    (broadcastInDim S50000 ![] bcast_S_S50000 (id (constant S_ .f32 0x00000000#32)))

/-- A message edge's weight: the product of its source's and its target's weights. -/
def edgeWeight (s d : (⟨S850000, .i32⟩ : BufTy).Contents (Elt F)) : (⟨S850000, .f32⟩ : BufTy).Contents (Elt F) :=
  mulf (Host.gather gather_S50000_S850000x1_S850000_n_0_n_n_0_1_1 (nodeWeight d) (rowColumn s))
    (Host.gather gather_S50000_S850000x1_S850000_n_0_n_n_0_1_1 (nodeWeight d) (rowColumn d))

/-- The edge weights kept as one column. -/
def weightColumn (s d : (⟨S850000, .i32⟩ : BufTy).Contents (Elt F)) : (⟨S850000x1, .f32⟩ : BufTy).Contents (Elt F) :=
  broadcastInDim S850000x1 ![0] bcast_S850000_S850000x1_0 (edgeWeight s d)

/-- One round of message passing over 128 features, the edge weights given as a column `w`. -/
def aggregate128 (h : (⟨S50000x128, .f32⟩ : BufTy).Contents (Elt F)) (s d : (⟨S850000, .i32⟩ : BufTy).Contents (Elt F))
    (w : (⟨S850000x1, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32))
    (broadcastInDim S850000x1 ![0] bcast_S850000_S850000x1_0 d)
    (mulf (Host.gather gather_S50000x128_S850000x1_S850000x128_1_0_n_n_0_1_1128 h (rowColumn s))
      (broadcastInDim S850000x128 ![0, 1] bcast_S850000x1_S850000x128_0_1 w))

/-- One round of message passing over 64 features. -/
def aggregate64 (h : (⟨S50000x64, .f32⟩ : BufTy).Contents (Elt F)) (s d : (⟨S850000, .i32⟩ : BufTy).Contents (Elt F))
    (w : (⟨S850000x1, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32))
    (broadcastInDim S850000x1 ![0] bcast_S850000_S850000x1_0 d)
    (mulf (Host.gather gather_S50000x64_S850000x1_S850000x64_1_0_n_n_0_1_164 h (rowColumn s))
      (broadcastInDim S850000x64 ![0, 1] bcast_S850000x1_S850000x64_0_1 w))

end Cert.KernelIdeal.HostValue

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowBias.lean ====
/-
  Rows plus a bias row, then the maximum with zero — general in the number of rows R and of columns K.

  For `a` of shape [R, K] and a bias kept as a one-row array `b` of shape [1, K], `hiddenRows a b` has at (r, k) the
  value `max (a (r, k) + b (0, k)) 0`, the zero spelt as the f32 word 0x00000000 (the same word wherever it is
  printed, never evaluated). The operation acts on each row by itself: `hiddenRows_congr` says that where a block
  `a'` holds at its row `p'` what `a` holds at row `p`, and the two bias rows agree, the two results agree at those
  rows. Nothing here needs the entries to be finite.
-/
import Idealize.ShloMosaic.PureOps.Ideal.Laws
import Idealize.ShloMosaic.Lib.ValueIdx

noncomputable section

namespace Cert.Dense

open Idealize.ShloMosaic Idealize.ShloMosaic.ValueIdx

/-- `max (a (r, k) + b (0, k)) 0` at every (r, k). -/
def hiddenRows {R K : Nat} (a : (⟨2, ![R, K]⟩ : Shape).Idx → EReal) (b : (⟨2, ![1, K]⟩ : Shape).Idx → EReal) :
    (⟨2, ![R, K]⟩ : Shape).Idx → EReal :=
  fun i => max (a i + b (ix2 (0 : Fin 1) (i 1 : Fin K))) (Ideal.ofBits .f32 0x00000000#32)

/-- Read at a row and a column. -/
theorem hiddenRows_apply {R K : Nat} (a : (⟨2, ![R, K]⟩ : Shape).Idx → EReal) (b : (⟨2, ![1, K]⟩ : Shape).Idx → EReal)
    (p : Fin R) (k : Fin K) :
    hiddenRows a b (ix2 p k) = max (a (ix2 p k) + b (ix2 (0 : Fin 1) k)) (Ideal.ofBits .f32 0x00000000#32) := rfl

/-- Each row by itself: equal rows and equal bias rows give equal results at those rows. -/
theorem hiddenRows_congr {R R' K : Nat} (a : (⟨2, ![R, K]⟩ : Shape).Idx → EReal) (b : (⟨2, ![1, K]⟩ : Shape).Idx → EReal)
    (a' : (⟨2, ![R', K]⟩ : Shape).Idx → EReal) (b' : (⟨2, ![1, K]⟩ : Shape).Idx → EReal) (p : Fin R) (p' : Fin R') (k : Fin K)
    (ha : a' (ix2 p' k) = a (ix2 p k)) (hb : b' (ix2 (0 : Fin 1) k) = b (ix2 (0 : Fin 1) k)) :
    hiddenRows a' b' (ix2 p' k) = hiddenRows a b (ix2 p k) := by
  rw [hiddenRows_apply, hiddenRows_apply, ha, hb]

end Cert.Dense

end
-- ==== Proof.LibLogSoftmaxRows.lean ====
/-
  Rows plus a bias row, then the row-wise log-softmax — general in the number of rows R and of columns K.

  For `a` of shape [R, K] and a bias kept as a one-row array `b` of shape [1, K], row `p` of the biased array is
  `z k = a (p, k) + b (0, k)`. Its log-softmax at column `q` is `(z q − M) − log Σ_k exp (z k − M)` with `M` the
  maximum of the row taken from the f32 word of −∞ (the word is carried, never evaluated). Each row is treated by
  itself, so a block of rows of `a` gives the same rows of the result (`logSoftmaxRows_congr`). Nothing here needs the
  entries to be finite.
-/
import Idealize.ShloMosaic.PureOps.Ideal.Laws
import Idealize.ShloMosaic.Lib.ValueIdx

noncomputable section

namespace Cert.Dense

open Idealize.ShloMosaic Idealize.ShloMosaic.ValueIdx

/-- Row `p` of `a` plus the bias row: `k ↦ a (p, k) + b (0, k)`. -/
def biasedRow {R K : Nat} (a : (⟨2, ![R, K]⟩ : Shape).Idx → EReal) (b : (⟨2, ![1, K]⟩ : Shape).Idx → EReal) (p : Fin R) :
    Fin K → EReal :=
  fun k => a (ix2 p k) + b (ix2 (0 : Fin 1) k)

/-- The maximum of a row, taken from the f32 word of −∞. -/
def rowTop {K : Nat} (z : Fin K → EReal) : EReal :=
  (Finset.univ : Finset (Fin K)).fold max (Ideal.ofBits .f32 0xFF800000#32) z

/-- The log-softmax of a row at column `q`: `(z q − M) − log Σ_k exp (z k − M)`. -/
def logSoftmaxRow {K : Nat} (z : Fin K → EReal) (q : Fin K) : EReal :=
  (z q - rowTop z) - Ideal.log (∑ k : Fin K, Ideal.exp (z k - rowTop z))

/-- The log-softmax of every biased row. -/
def logSoftmaxRows {R K : Nat} (a : (⟨2, ![R, K]⟩ : Shape).Idx → EReal) (b : (⟨2, ![1, K]⟩ : Shape).Idx → EReal) :
    (⟨2, ![R, K]⟩ : Shape).Idx → EReal :=
  fun i => logSoftmaxRow (biasedRow a b (i 0 : Fin R)) (i 1 : Fin K)

/-- Read at a row and a column. -/
theorem logSoftmaxRows_apply {R K : Nat} (a : (⟨2, ![R, K]⟩ : Shape).Idx → EReal) (b : (⟨2, ![1, K]⟩ : Shape).Idx → EReal)
    (p : Fin R) (q : Fin K) : logSoftmaxRows a b (ix2 p q) = logSoftmaxRow (biasedRow a b p) q := rfl

/-- Each row by itself: equal rows and equal bias rows give equal results at those rows. -/
theorem logSoftmaxRows_congr {R R' K : Nat} (a : (⟨2, ![R, K]⟩ : Shape).Idx → EReal) (b : (⟨2, ![1, K]⟩ : Shape).Idx → EReal)
    (a' : (⟨2, ![R', K]⟩ : Shape).Idx → EReal) (b' : (⟨2, ![1, K]⟩ : Shape).Idx → EReal) (p : Fin R) (p' : Fin R') (q : Fin K)
    (ha : ∀ k : Fin K, a' (ix2 p' k) = a (ix2 p k)) (hb : ∀ k : Fin K, b' (ix2 (0 : Fin 1) k) = b (ix2 (0 : Fin 1) k)) :
    logSoftmaxRows a' b' (ix2 p' q) = logSoftmaxRows a b (ix2 p q) := by
  rw [logSoftmaxRows_apply, logSoftmaxRows_apply]
  have hz : biasedRow a' b' p' = biasedRow a b p := funext fun k => by unfold biasedRow; rw [ha k, hb k]
  rw [hz]

end Cert.Dense

end
-- ==== Proof.KernelStages.lean ====
/-
  The kernel's network as ONE function of its eight arguments.

  Three layers. A layer multiplies the node features by its weight matrix (`rowsTimes`: the grid computes the product
  one block of 2000 rows at a time, which is the whole product), passes the products along the message edges
  (`aggregate128`, `aggregate64` of the graph side), and adds the layer's bias — kept as a one-row array — to every
  row; the first two layers then take the maximum with zero (`hiddenRows`), the last one the row-wise log-softmax
  (`logSoftmaxRows`).
-/
import proofs.«128856_j5995774345733_1_alg».proof.Proof.KernelGraph
import proofs.«128856_j5995774345733_1_alg».proof.Proof.LibRowsTimes
import proofs.«128856_j5995774345733_1_alg».proof.Proof.LibRowBias
import proofs.«128856_j5995774345733_1_alg».proof.Proof.LibLogSoftmaxRows

noncomputable section

namespace Cert.KernelIdeal.HostValue

open Cert.KernelIdeal Cert.KernelIdeal.Facts₀ Cert.KernelIdeal.Facts Idealize.ShloMosaic

/-- A bias of 128 entries kept as a one-row array. -/
def biasRow128 (b : (⟨S128, .f32⟩ : BufTy).Contents (Elt Ideal)) : (⟨S1x128, .f32⟩ : BufTy).Contents (Elt Ideal) :=
  shapeCast _ b shapeCasts_S128_S1x128

/-- A bias of 64 entries kept as a one-row array. -/
def biasRow64 (b : (⟨S64, .f32⟩ : BufTy).Contents (Elt Ideal)) : (⟨S1x64, .f32⟩ : BufTy).Contents (Elt Ideal) :=
  shapeCast _ b shapeCasts_S64_S1x64

/-- The first hidden layer's output. -/
def hidden1 (x0 : (⟨S50000x512, .f32⟩ : BufTy).Contents (Elt Ideal)) (x1 : (⟨S2x800000, .i32⟩ : BufTy).Contents (Elt Ideal))
    (x2 : (⟨S512x128, .f32⟩ : BufTy).Contents (Elt Ideal)) (x3 : (⟨S128, .f32⟩ : BufTy).Contents (Elt Ideal)) :
    (⟨S50000x128, .f32⟩ : BufTy).Contents (Elt Ideal) :=
  Cert.Dense.hiddenRows (aggregate128 (Cert.Dense.rowsTimes x0 x2)
    (edgeSource x1) (edgeTarget x1) (weightColumn (edgeSource x1) (edgeTarget x1))) (biasRow128 x3)

/-- The second hidden layer's output, from the first's. -/
def hidden2 (h : (⟨S50000x128, .f32⟩ : BufTy).Contents (Elt Ideal)) (x1 : (⟨S2x800000, .i32⟩ : BufTy).Contents (Elt Ideal))
    (x4 : (⟨S128x128, .f32⟩ : BufTy).Contents (Elt Ideal)) (x5 : (⟨S128, .f32⟩ : BufTy).Contents (Elt Ideal)) :
    (⟨S50000x128, .f32⟩ : BufTy).Contents (Elt Ideal) :=
  Cert.Dense.hiddenRows (aggregate128 (Cert.Dense.rowsTimes h x4)
    (edgeSource x1) (edgeTarget x1) (weightColumn (edgeSource x1) (edgeTarget x1))) (biasRow128 x5)

/-- The output layer, from the second hidden layer's output. -/
def logits (h : (⟨S50000x128, .f32⟩ : BufTy).Contents (Elt Ideal)) (x1 : (⟨S2x800000, .i32⟩ : BufTy).Contents (Elt Ideal))
    (x6 : (⟨S128x64, .f32⟩ : BufTy).Contents (Elt Ideal)) (x7 : (⟨S64, .f32⟩ : BufTy).Contents (Elt Ideal)) :
    (⟨S50000x64, .f32⟩ : BufTy).Contents (Elt Ideal) :=
  Cert.Dense.logSoftmaxRows (aggregate64 (Cert.Dense.rowsTimes h x6)
    (edgeSource x1) (edgeTarget x1) (weightColumn (edgeSource x1) (edgeTarget x1))) (biasRow64 x7)

/-- The whole network. -/
def network (x0 : (⟨S50000x512, .f32⟩ : BufTy).Contents (Elt Ideal)) (x1 : (⟨S2x800000, .i32⟩ : BufTy).Contents (Elt Ideal))
    (x2 : (⟨S512x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x64, .f32⟩ : BufTy).Contents (Elt Ideal)) (x7 : (⟨S64, .f32⟩ : BufTy).Contents (Elt Ideal)) :
    (⟨S50000x64, .f32⟩ : BufTy).Contents (Elt Ideal) :=
  logits (hidden2 (hidden1 x0 x1 x2 x3) x1 x4 x5) x1 x6 x7

end Cert.KernelIdeal.HostValue

end
-- ==== Proof.KernelStretches.lean ====
/-
  The kernel program's stretches of host operations, each read as a function of the buffers it starts from.

  A stretch is a straight line of host operations; what a buffer holds after it is the operations' composition
  applied to what the stretch found. The first three stretches compute the message edges (`edgeSource`,
  `edgeTarget`), the nodes' weights and the column of edge weights; the stretch before each of the three
  bias regions is one round of message passing (`aggregate128`, `aggregate64`) over the preceding product and
  the reshaping of the layer's bias to one row. A buffer no operation of a stretch writes is left as found.
-/
import proofs.«128856_j5995774345733_1_alg».proof.Proof.Gen.KernelIdeal.Launch
import proofs.«128856_j5995774345733_1_alg».proof.Proof.KernelStages
import Idealize.ShloMosaic.Lib.StableHlo.Run

set_option maxRecDepth 16384

noncomputable section

namespace Cert.KernelIdeal.RunValue

open Cert.KernelIdeal Cert.KernelIdeal.Facts₀ Cert.KernelIdeal.Gen Cert.KernelIdeal.HostValue
open Idealize.ShloMosaic Idealize.ShloMosaic.TcCoe Idealize.SL.Sem Idealize.ShloMosaic.StableHlo

variable (V : Valuation τ sig (Elt Ideal))

/-! ## What each stretch computes -/

set_option maxHeartbeats 40000000 in
theorem ops0_source : after (hostOps0 (F := Ideal)) V (Proc.devRef .tc main_v3) = edgeSource (V (Proc.devRef .tc main_arg1)) := by
  after_results
  all_goals rfl

set_option maxHeartbeats 40000000 in
theorem ops0_target : after (hostOps0 (F := Ideal)) V (Proc.devRef .tc main_v7) = edgeTarget (V (Proc.devRef .tc main_arg1)) := by
  after_results
  all_goals rfl

set_option maxHeartbeats 40000000 in
theorem ops0_positive : after (hostOps0 (F := Ideal)) V (Proc.devRef .tc main_v13) = cmpf .ogt (degree (edgeTarget (V (Proc.devRef .tc main_arg1)))) (broadcastInDim S50000 ![] Facts₀.bcast_S_S50000 (constant (F := Ideal) S_ .f32 0x00000000#32)) := by
  after_results
  all_goals rfl

set_option maxHeartbeats 40000000 in
theorem ops0_rsqrt : after (hostOps0 (F := Ideal)) V (Proc.devRef .tc main_v16) = Host.rsqrt (maximumf (degree (edgeTarget (V (Proc.devRef .tc main_arg1)))) (broadcastInDim S50000 ![] Facts₀.bcast_S_S50000 (constant (F := Ideal) S_ .f32 0x3F800000#32))) := by
  after_results
  all_goals rfl

set_option maxHeartbeats 40000000 in
theorem ops0_zero : after (hostOps0 (F := Ideal)) V (Proc.devRef .tc main_cst_3) = constant (F := Ideal) S_ .f32 0x00000000#32 := by
  after_results
  all_goals rfl

set_option maxHeartbeats 40000000 in
theorem ops01_weight : after (hostOps0_1 (F := Ideal)) V (Proc.devRef .tc main_v17) = select (V (Proc.devRef .tc main_v13)) (V (Proc.devRef .tc main_v16)) (broadcastInDim S50000 ![] Facts₀.bcast_S_S50000 (id (V (Proc.devRef .tc main_cst_3)))) := by
  after_results
  all_goals rfl

/-- A message edge's weight from given node weights `nw`: its two ends' weights multiplied. -/
def weightOf {F : FTy → Type} [FloatOps F] (nw : (⟨S50000, .f32⟩ : BufTy).Contents (Elt F)) (s d : (⟨S850000, .i32⟩ : BufTy).Contents (Elt F)) :
    (⟨S850000, .f32⟩ : BufTy).Contents (Elt F) :=
  mulf (Host.gather gather_S50000_S850000x1_S850000_n_0_n_n_0_1_1 nw (rowColumn s))
    (Host.gather gather_S50000_S850000x1_S850000_n_0_n_n_0_1_1 nw (rowColumn d))

/-- Those weights kept as one column. -/
def columnOf {F : FTy → Type} [FloatOps F] (nw : (⟨S50000, .f32⟩ : BufTy).Contents (Elt F)) (s d : (⟨S850000, .i32⟩ : BufTy).Contents (Elt F)) :
    (⟨S850000x1, .f32⟩ : BufTy).Contents (Elt F) :=
  broadcastInDim S850000x1 ![0] Facts₀.bcast_S850000_S850000x1_0 (weightOf nw s d)

theorem weightColumn_eq {F : FTy → Type} [FloatOps F] (s d : (⟨S850000, .i32⟩ : BufTy).Contents (Elt F)) :
    weightColumn s d = columnOf (nodeWeight d) s d := rfl

set_option maxHeartbeats 40000000 in
theorem ops02_column : after (hostOps0_2 (F := Ideal)) V (Proc.devRef .tc main_v33) = columnOf (V (Proc.devRef .tc main_v17)) (V (Proc.devRef .tc main_v3)) (V (Proc.devRef .tc main_v7)) := by
  after_results_simp
  all_goals rfl

set_option maxHeartbeats 40000000 in
theorem ops1_sum : after (hostOps1 (F := Ideal)) V (Proc.devRef .tc main_v46) = aggregate128 (V (Proc.devRef .tc main_v34)) (V (Proc.devRef .tc main_v3)) (V (Proc.devRef .tc main_v7)) (V (Proc.devRef .tc main_v33)) := by
  after_results_simp
  all_goals rfl

set_option maxHeartbeats 40000000 in
theorem ops1_bias : after (hostOps1 (F := Ideal)) V (Proc.devRef .tc main_v47) = biasRow128 (V (Proc.devRef .tc main_arg3)) := by
  after_results
  all_goals rfl

set_option maxHeartbeats 40000000 in
theorem ops3_sum : after (hostOps3 (F := Ideal)) V (Proc.devRef .tc main_v61) = aggregate128 (V (Proc.devRef .tc main_v49)) (V (Proc.devRef .tc main_v3)) (V (Proc.devRef .tc main_v7)) (V (Proc.devRef .tc main_v33)) := by
  after_results_simp
  all_goals rfl

set_option maxHeartbeats 40000000 in
theorem ops3_bias : after (hostOps3 (F := Ideal)) V (Proc.devRef .tc main_v62) = biasRow128 (V (Proc.devRef .tc main_arg5)) := by
  after_results
  all_goals rfl

set_option maxHeartbeats 40000000 in
theorem ops5_sum : after (hostOps5 (F := Ideal)) V (Proc.devRef .tc main_v76) = aggregate64 (V (Proc.devRef .tc main_v64)) (V (Proc.devRef .tc main_v3)) (V (Proc.devRef .tc main_v7)) (V (Proc.devRef .tc main_v33)) := by
  after_results_simp
  all_goals rfl

set_option maxHeartbeats 40000000 in
theorem ops5_bias : after (hostOps5 (F := Ideal)) V (Proc.devRef .tc main_v77) = biasRow64 (V (Proc.devRef .tc main_arg7)) := by
  after_results
  all_goals rfl

/-! ## What each stretch leaves alone -/

theorem keep0_arg0 : after (hostOps0 (F := Ideal)) V (Proc.devRef .tc main_arg0) = V (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_arg1 : after (hostOps0 (F := Ideal)) V (Proc.devRef .tc main_arg1) = V (Proc.devRef .tc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_arg2 : after (hostOps0 (F := Ideal)) V (Proc.devRef .tc main_arg2) = V (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_arg3 : after (hostOps0 (F := Ideal)) V (Proc.devRef .tc main_arg3) = V (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_arg4 : after (hostOps0 (F := Ideal)) V (Proc.devRef .tc main_arg4) = V (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_arg5 : after (hostOps0 (F := Ideal)) V (Proc.devRef .tc main_arg5) = V (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_arg6 : after (hostOps0 (F := Ideal)) V (Proc.devRef .tc main_arg6) = V (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_arg7 : after (hostOps0 (F := Ideal)) V (Proc.devRef .tc main_arg7) = V (Proc.devRef .tc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep01_v3 : after (hostOps0_1 (F := Ideal)) V (Proc.devRef .tc main_v3) = V (Proc.devRef .tc main_v3) :=
  StableHlo.after_of_forall_not_mem (b := Proc.devRef .tc main_v3) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep01_v7 : after (hostOps0_1 (F := Ideal)) V (Proc.devRef .tc main_v7) = V (Proc.devRef .tc main_v7) :=
  StableHlo.after_of_forall_not_mem (b := Proc.devRef .tc main_v7) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep01_arg0 : after (hostOps0_1 (F := Ideal)) V (Proc.devRef .tc main_arg0) = V (Proc.devRef .tc main_arg0) :=
  StableHlo.after_of_forall_not_mem (b := Proc.devRef .tc main_arg0) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep01_arg2 : after (hostOps0_1 (F := Ideal)) V (Proc.devRef .tc main_arg2) = V (Proc.devRef .tc main_arg2) :=
  StableHlo.after_of_forall_not_mem (b := Proc.devRef .tc main_arg2) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep01_arg3 : after (hostOps0_1 (F := Ideal)) V (Proc.devRef .tc main_arg3) = V (Proc.devRef .tc main_arg3) :=
  StableHlo.after_of_forall_not_mem (b := Proc.devRef .tc main_arg3) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep01_arg4 : after (hostOps0_1 (F := Ideal)) V (Proc.devRef .tc main_arg4) = V (Proc.devRef .tc main_arg4) :=
  StableHlo.after_of_forall_not_mem (b := Proc.devRef .tc main_arg4) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep01_arg5 : after (hostOps0_1 (F := Ideal)) V (Proc.devRef .tc main_arg5) = V (Proc.devRef .tc main_arg5) :=
  StableHlo.after_of_forall_not_mem (b := Proc.devRef .tc main_arg5) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep01_arg6 : after (hostOps0_1 (F := Ideal)) V (Proc.devRef .tc main_arg6) = V (Proc.devRef .tc main_arg6) :=
  StableHlo.after_of_forall_not_mem (b := Proc.devRef .tc main_arg6) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep01_arg7 : after (hostOps0_1 (F := Ideal)) V (Proc.devRef .tc main_arg7) = V (Proc.devRef .tc main_arg7) :=
  StableHlo.after_of_forall_not_mem (b := Proc.devRef .tc main_arg7) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep02_v3 : after (hostOps0_2 (F := Ideal)) V (Proc.devRef .tc main_v3) = V (Proc.devRef .tc main_v3) :=
  StableHlo.after_of_forall_not_mem (b := Proc.devRef .tc main_v3) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep02_v7 : after (hostOps0_2 (F := Ideal)) V (Proc.devRef .tc main_v7) = V (Proc.devRef .tc main_v7) :=
  StableHlo.after_of_forall_not_mem (b := Proc.devRef .tc main_v7) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep02_arg0 : after (hostOps0_2 (F := Ideal)) V (Proc.devRef .tc main_arg0) = V (Proc.devRef .tc main_arg0) :=
  StableHlo.after_of_forall_not_mem (b := Proc.devRef .tc main_arg0) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep02_arg2 : after (hostOps0_2 (F := Ideal)) V (Proc.devRef .tc main_arg2) = V (Proc.devRef .tc main_arg2) :=
  StableHlo.after_of_forall_not_mem (b := Proc.devRef .tc main_arg2) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep02_arg3 : after (hostOps0_2 (F := Ideal)) V (Proc.devRef .tc main_arg3) = V (Proc.devRef .tc main_arg3) :=
  StableHlo.after_of_forall_not_mem (b := Proc.devRef .tc main_arg3) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep02_arg4 : after (hostOps0_2 (F := Ideal)) V (Proc.devRef .tc main_arg4) = V (Proc.devRef .tc main_arg4) :=
  StableHlo.after_of_forall_not_mem (b := Proc.devRef .tc main_arg4) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep02_arg5 : after (hostOps0_2 (F := Ideal)) V (Proc.devRef .tc main_arg5) = V (Proc.devRef .tc main_arg5) :=
  StableHlo.after_of_forall_not_mem (b := Proc.devRef .tc main_arg5) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep02_arg6 : after (hostOps0_2 (F := Ideal)) V (Proc.devRef .tc main_arg6) = V (Proc.devRef .tc main_arg6) :=
  StableHlo.after_of_forall_not_mem (b := Proc.devRef .tc main_arg6) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep02_arg7 : after (hostOps0_2 (F := Ideal)) V (Proc.devRef .tc main_arg7) = V (Proc.devRef .tc main_arg7) :=
  StableHlo.after_of_forall_not_mem (b := Proc.devRef .tc main_arg7) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_v3 : after (hostOps1 (F := Ideal)) V (Proc.devRef .tc main_v3) = V (Proc.devRef .tc main_v3) :=
  StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_v7 : after (hostOps1 (F := Ideal)) V (Proc.devRef .tc main_v7) = V (Proc.devRef .tc main_v7) :=
  StableHlo.after_of_forall_not_mem (b := Proc.devRef .tc main_v7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_v33 : after (hostOps1 (F := Ideal)) V (Proc.devRef .tc main_v33) = V (Proc.devRef .tc main_v33) :=
  StableHlo.after_of_forall_not_mem (b := Proc.devRef .tc main_v33) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_arg4 : after (hostOps1 (F := Ideal)) V (Proc.devRef .tc main_arg4) = V (Proc.devRef .tc main_arg4) :=
  StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_arg5 : after (hostOps1 (F := Ideal)) V (Proc.devRef .tc main_arg5) = V (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_arg6 : after (hostOps1 (F := Ideal)) V (Proc.devRef .tc main_arg6) = V (Proc.devRef .tc main_arg6) :=
  StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_arg7 : after (hostOps1 (F := Ideal)) V (Proc.devRef .tc main_arg7) = V (Proc.devRef .tc main_arg7) :=
  StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_v3 : after (hostOps3 (F := Ideal)) V (Proc.devRef .tc main_v3) = V (Proc.devRef .tc main_v3) :=
  StableHlo.after_of_forall_not_mem (b := Proc.devRef .tc main_v3) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_v7 : after (hostOps3 (F := Ideal)) V (Proc.devRef .tc main_v7) = V (Proc.devRef .tc main_v7) :=
  StableHlo.after_of_forall_not_mem (b := Proc.devRef .tc main_v7) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_v33 : after (hostOps3 (F := Ideal)) V (Proc.devRef .tc main_v33) = V (Proc.devRef .tc main_v33) :=
  StableHlo.after_of_forall_not_mem (b := Proc.devRef .tc main_v33) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_arg6 : after (hostOps3 (F := Ideal)) V (Proc.devRef .tc main_arg6) = V (Proc.devRef .tc main_arg6) :=
  StableHlo.after_of_forall_not_mem (b := Proc.devRef .tc main_arg6) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_arg7 : after (hostOps3 (F := Ideal)) V (Proc.devRef .tc main_arg7) = V (Proc.devRef .tc main_arg7) :=
  StableHlo.after_of_forall_not_mem (b := Proc.devRef .tc main_arg7) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.RunValue

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«128856_j5995774345733_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.ProductRegion0.lean ====
/-
  Region 0 of the kernel, as one function of its two argument arrays.

  The region runs over 25 points. Point t takes rows 2000·t … 2000·t+1999 of the [50000, 512] left array and the
  whole [512, 128] right array, multiplies them (the operands' change of float format is the identity on the
  extended reals) and writes the [2000, 128] product back as rows 2000·t … 2000·t+1999 of the [50000, 128] output
  array. Rows of a product are products of rows, so each written block is that block of rows of the product of
  the two WHOLE arrays; the 25 blocks fill the output array, which therefore ends holding that product.
-/
import proofs.«128856_j5995774345733_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«128856_j5995774345733_1_alg».proof.Proof.LibRowsTimes
import proofs.«128856_j5995774345733_1_alg».proof.Proof.LibRowsCols

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

/-- The origin of a rank-2 buffer, as the constant function. -/
theorem origin0 : (![0, 0] : Fin 2 → Nat) = fun _ => 0 := funext fun a => by fin_cases a <;> rfl

/-- The region's contraction record is "rows times columns": one contracted axis of extent 512, the left operand
    read at (row, k), the right one at (k, column). -/
theorem rowsCols0 : Cert.Dense.RowsCols dot_S2000x512_S512x128_S2000x128_1_0_0_1_n_n :=
  ⟨rfl, rfl, fun _ _ => rfl, fun _ _ => rfl, fun _ _ => rfl, fun _ _ => rfl⟩

/-- The body's arithmetic at one entry: the sum over k of left (row, k) · right (k, column). -/
theorem body0_apply (x0 : Vec Ideal S2000x512 .f32) (x1 : Vec Ideal S512x128 .f32) (j : S2000x128.Idx) :
    k0_pay1 x0 x1 j = Cert.Dense.rowsTimes x0 x1 j := by
  unfold k0_pay1
  exact Cert.Dense.matmul_zero_apply rowsCols0 none
    (truncf .bf16 x0 bitsLt_bf16_f32 : FVec Ideal S2000x512 .bf16) (truncf .bf16 x1 bitsLt_bf16_f32 : FVec Ideal S512x128 .bf16) j

/-- The body's entry (r, j) on a block of rows of `a` and the whole of `w` is the entry of `a · w` in that row
    of `a`. -/
theorem body0_of_rows (a : S50000x512.Idx → EReal) (w : S512x128.Idx → EReal)
    (x0 : Vec Ideal S2000x512 .f32) (x1 : Vec Ideal S512x128 .f32) (j : S2000x128.Idx) (i : S50000x128.Idx)
    (h0 : ∀ k : Fin 512, x0 (ix2 (j 0 : Fin 2000) k) = a (ix2 (i 0 : Fin 50000) k))
    (h1 : ∀ k : Fin 512, x1 (ix2 k (j 1 : Fin 128)) = w (ix2 k (i 1 : Fin 128))) :
    k0_pay1 x0 x1 j = Cert.Dense.rowsTimes a w i :=
  (body0_apply x0 x1 j).trans (Cert.Dense.rowsTimes_of_rows a w x0 x1 j i h0 h1)

/-- The printed index maps, decided over the grid: the left block and the output block are block t of rows, all
    other block indices are 0. -/
theorem blocks0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 24
    ∧ win0_2.index t (1 : Fin 2) = 0 :=
  (by decide +kernel : ∀ t : Fin grid0.N, _)

/-- Every block of rows of the output array is some point's. -/
theorem blocks0_onto : ∀ q : Fin 25, ∃ t : Fin cfg0.N, win0_2.index t = ![q.val, 0] :=
  (by decide +kernel : ∀ q : Fin 25, ∃ t : Fin grid0.N, win0_2.index t = ![q.val, 0])

variable (V : (c : Dev nD) → (b : Ref sig .tc) → Buf (Elt Ideal) ((c : Thread nD τ).loc b))

/-- What point t writes back is block t of the product of the two whole arrays. -/
theorem writeback0 (c : Dev nD) (t : Fin cfg0.N) :
    (dat0 (F := Ideal) V c).flushed 2 t
      = ((cfg0.win 2).blk t).view.read (Elt Ideal) (Cert.Dense.rowsTimes (V c main_arg0) (V c main_arg2)) := by
  show (cfg0.win 2).cut (grid0.coords t) ((dat0 (F := Ideal) V c).after 2 t) = _
  rw [after0_2]
  unfold out0_2
  rw [View.canon_unit_zero origin0]
  simp only [View.ld_unit_zero (S := S2000x512) origin0, View.ld_unit_zero (S := S512x128) origin0]
  obtain ⟨e0, e1, e2, e3, e4, e5⟩ := blocks0 t
  funext j
  show k0_pay1 (iblk0 V c 0 t) (iblk0 V c 1 t) j
    = Cert.Dense.rowsTimes (V c main_arg0) (V c main_arg2) (((cfg0.win 2).blk t).view.emb j)
  refine body0_of_rows (V c main_arg0) (V c main_arg2) (iblk0 V c 0 t) (iblk0 V c 1 t) j _ (fun k => ?_) (fun k => ?_)
  · show V c main_arg0 (((cfg0.win 0).blk t).view.emb (ix2 (j 0 : Fin 2000) k))
      = V c main_arg0 (ix2 ((((cfg0.win 2).blk t).view.emb j) 0 : Fin 50000) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  · show V c main_arg2 (((cfg0.win 1).blk t).view.emb (ix2 k (j 1 : Fin 128)))
      = V c main_arg2 (ix2 k ((((cfg0.win 2).blk t).view.emb j) 1 : Fin 128))
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega

/-- An index of the output array is in point t's block iff each coordinate is in the block's range on its axis. -/
theorem mem_block0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v34).slice (win0_2.rect t)).set ↔ _
  rw [View.set_slice_whole, Rect.mem_set_unit]
  exact Iff.rfl

/-- Every index of the output array is in the block of the point that handles its row: row r is in block r / 2000. -/
theorem covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := blocks0_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- REGION 0: after its 25 points the output array holds the product of the two argument arrays. -/
theorem product0 (c : Dev nD) :
    (dat0 (F := Ideal) V c).arrAt 2 cfg0.N = Cert.Dense.rowsTimes (V c main_arg0) (V c main_arg2) :=
  (dat0 (F := Ideal) V c).arrAt_eq_of_cover 2 (Cert.Dense.rowsTimes (V c main_arg0) (V c main_arg2))
    (fun t _ => writeback0 V c t) covered0

end Cert.KernelIdeal.RegionValue

end
-- ==== Proof.ProductRegion2.lean ====
/-
  Region 2 of the kernel, as one function of its two input arrays.

  The region runs over 25 points. Point t takes rows 2000·t … 2000·t+1999 of the [50000, 128] left array and the
  whole [128, 128] right array, multiplies them (the identity reshape of the left block and the operands' change of
  float format are the identity on the extended reals) and writes the [2000, 128] product back as rows
  2000·t … 2000·t+1999 of the [50000, 128] output array. Rows of a product are products of rows, so each written
  block is that block of rows of the product of the two WHOLE arrays; the 25 blocks fill the output array, which
  therefore ends holding that product.
-/
import proofs.«128856_j5995774345733_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«128856_j5995774345733_1_alg».proof.Proof.LibRowsTimes
import proofs.«128856_j5995774345733_1_alg».proof.Proof.LibRowsCols

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

/-- The origin of a rank-2 buffer, as the constant function. -/
theorem origin2 : (![0, 0] : Fin 2 → Nat) = fun _ => 0 := funext fun a => by fin_cases a <;> rfl

/-- The region's contraction record is "rows times columns": one contracted axis of extent 128, the left operand
    read at (row, k), the right one at (k, column). -/
theorem rowsCols2 : Cert.Dense.RowsCols dot_S2000x128_S128x128_S2000x128_1_0_0_1_n_n :=
  ⟨rfl, rfl, fun _ _ => rfl, fun _ _ => rfl, fun _ _ => rfl, fun _ _ => rfl⟩

/-- The body's arithmetic at one entry: the sum over k of left (row, k) · right (k, column). -/
theorem body2_apply (x0 : Vec Ideal S2000x128 .f32) (x1 : Vec Ideal S128x128 .f32) (j : S2000x128.Idx) :
    k2_pay1 x0 x1 j = Cert.Dense.rowsTimes x0 x1 j := by
  unfold k2_pay1
  refine (Cert.Dense.matmul_zero_apply rowsCols2 none
    (truncf .bf16 (shapeCast S2000x128 x0 shapeCasts_S2000x128_S2000x128) bitsLt_bf16_f32 : FVec Ideal S2000x128 .bf16)
    (truncf .bf16 x1 bitsLt_bf16_f32 : FVec Ideal S128x128 .bf16) j).trans ?_
  rw [shapeCast_self]
  rfl

/-- The body's entry (r, j) on a block of rows of `a` and the whole of `w` is the entry of `a · w` in that row
    of `a`. -/
theorem body2_of_rows (a : S50000x128.Idx → EReal) (w : S128x128.Idx → EReal)
    (x0 : Vec Ideal S2000x128 .f32) (x1 : Vec Ideal S128x128 .f32) (j : S2000x128.Idx) (i : S50000x128.Idx)
    (h0 : ∀ k : Fin 128, x0 (ix2 (j 0 : Fin 2000) k) = a (ix2 (i 0 : Fin 50000) k))
    (h1 : ∀ k : Fin 128, x1 (ix2 k (j 1 : Fin 128)) = w (ix2 k (i 1 : Fin 128))) :
    k2_pay1 x0 x1 j = Cert.Dense.rowsTimes a w i :=
  (body2_apply x0 x1 j).trans (Cert.Dense.rowsTimes_of_rows a w x0 x1 j i h0 h1)

/-- The printed index maps, decided over the grid: the left block and the output block are block t of rows, all
    other block indices are 0. -/
theorem blocks2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 24
    ∧ win2_2.index t (1 : Fin 2) = 0 :=
  (by decide +kernel : ∀ t : Fin grid2.N, _)

/-- Every block of rows of the output array is some point's. -/
theorem blocks2_onto : ∀ q : Fin 25, ∃ t : Fin cfg2.N, win2_2.index t = ![q.val, 0] :=
  (by decide +kernel : ∀ q : Fin 25, ∃ t : Fin grid2.N, win2_2.index t = ![q.val, 0])

variable (V : (c : Dev nD) → (b : Ref sig .tc) → Buf (Elt Ideal) ((c : Thread nD τ).loc b))

/-- What point t writes back is block t of the product of the two whole arrays. -/
theorem writeback2 (c : Dev nD) (t : Fin cfg2.N) :
    (dat2 (F := Ideal) V c).flushed 2 t
      = ((cfg2.win 2).blk t).view.read (Elt Ideal) (Cert.Dense.rowsTimes (V c main_v48) (V c main_arg4)) := by
  show (cfg2.win 2).cut (grid2.coords t) ((dat2 (F := Ideal) V c).after 2 t) = _
  rw [after2_2]
  unfold out2_2
  rw [View.canon_unit_zero origin2]
  simp only [View.ld_unit_zero (S := S2000x128) origin2, View.ld_unit_zero (S := S128x128) origin2]
  obtain ⟨e0, e1, e2, e3, e4, e5⟩ := blocks2 t
  funext j
  show k2_pay1 (iblk2 V c 0 t) (iblk2 V c 1 t) j
    = Cert.Dense.rowsTimes (V c main_v48) (V c main_arg4) (((cfg2.win 2).blk t).view.emb j)
  refine body2_of_rows (V c main_v48) (V c main_arg4) (iblk2 V c 0 t) (iblk2 V c 1 t) j _ (fun k => ?_) (fun k => ?_)
  · show V c main_v48 (((cfg2.win 0).blk t).view.emb (ix2 (j 0 : Fin 2000) k))
      = V c main_v48 (ix2 ((((cfg2.win 2).blk t).view.emb j) 0 : Fin 50000) k)
    refine congrArg (V c main_v48) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  · show V c main_arg4 (((cfg2.win 1).blk t).view.emb (ix2 k (j 1 : Fin 128)))
      = V c main_arg4 (ix2 k ((((cfg2.win 2).blk t).view.emb j) 1 : Fin 128))
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the output array is in point t's block iff each coordinate is in the block's range on its axis. -/
theorem mem_block2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v49).slice (win2_2.rect t)).set ↔ _
  rw [View.set_slice_whole, Rect.mem_set_unit]
  exact Iff.rfl

/-- Every index of the output array is in the block of the point that handles its row: row r is in block r / 2000. -/
theorem covered2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := blocks2_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- REGION 2: after its 25 points the output array holds the product of its two input arrays. -/
theorem product2 (c : Dev nD) :
    (dat2 (F := Ideal) V c).arrAt 2 cfg2.N = Cert.Dense.rowsTimes (V c main_v48) (V c main_arg4) :=
  (dat2 (F := Ideal) V c).arrAt_eq_of_cover 2 (Cert.Dense.rowsTimes (V c main_v48) (V c main_arg4))
    (fun t _ => writeback2 V c t) covered2

end Cert.KernelIdeal.RegionValue

end
-- ==== Proof.ProductRegion4.lean ====
/-
  Region 4 of the kernel, as one function of its two input arrays.

  The region runs over 25 points. Point t takes rows 2000·t … 2000·t+1999 of the [50000, 128] left array and the
  whole [128, 64] right array, multiplies them (the identity reshape of the left block and the operands' change of
  float format are the identity on the extended reals) and writes the [2000, 64] product back as rows
  2000·t … 2000·t+1999 of the [50000, 64] output array. Rows of a product are products of rows, so each written
  block is that block of rows of the product of the two WHOLE arrays; the 25 blocks fill the output array, which
  therefore ends holding that product.
-/
import proofs.«128856_j5995774345733_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«128856_j5995774345733_1_alg».proof.Proof.LibRowsTimes
import proofs.«128856_j5995774345733_1_alg».proof.Proof.LibRowsCols

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

/-- The origin of a rank-2 buffer, as the constant function. -/
theorem origin4 : (![0, 0] : Fin 2 → Nat) = fun _ => 0 := funext fun a => by fin_cases a <;> rfl

/-- The region's contraction record is "rows times columns": one contracted axis of extent 128, the left operand
    read at (row, k), the right one at (k, column). -/
theorem rowsCols4 : Cert.Dense.RowsCols dot_S2000x128_S128x64_S2000x64_1_0_0_1_n_n :=
  ⟨rfl, rfl, fun _ _ => rfl, fun _ _ => rfl, fun _ _ => rfl, fun _ _ => rfl⟩

/-- The body's arithmetic at one entry: the sum over k of left (row, k) · right (k, column). -/
theorem body4_apply (x0 : Vec Ideal S2000x128 .f32) (x1 : Vec Ideal S128x64 .f32) (j : S2000x64.Idx) :
    k4_pay1 x0 x1 j = Cert.Dense.rowsTimes x0 x1 j := by
  unfold k4_pay1
  refine (Cert.Dense.matmul_zero_apply rowsCols4 none
    (truncf .bf16 (shapeCast S2000x128 x0 shapeCasts_S2000x128_S2000x128) bitsLt_bf16_f32 : FVec Ideal S2000x128 .bf16)
    (truncf .bf16 x1 bitsLt_bf16_f32 : FVec Ideal S128x64 .bf16) j).trans ?_
  rw [shapeCast_self]
  rfl

/-- The body's entry (r, j) on a block of rows of `a` and the whole of `w` is the entry of `a · w` in that row
    of `a`. -/
theorem body4_of_rows (a : S50000x128.Idx → EReal) (w : S128x64.Idx → EReal)
    (x0 : Vec Ideal S2000x128 .f32) (x1 : Vec Ideal S128x64 .f32) (j : S2000x64.Idx) (i : S50000x64.Idx)
    (h0 : ∀ k : Fin 128, x0 (ix2 (j 0 : Fin 2000) k) = a (ix2 (i 0 : Fin 50000) k))
    (h1 : ∀ k : Fin 128, x1 (ix2 k (j 1 : Fin 64)) = w (ix2 k (i 1 : Fin 64))) :
    k4_pay1 x0 x1 j = Cert.Dense.rowsTimes a w i :=
  (body4_apply x0 x1 j).trans (Cert.Dense.rowsTimes_of_rows a w x0 x1 j i h0 h1)

/-- The printed index maps, decided over the grid: the left block and the output block are block t of rows, all
    other block indices are 0. -/
theorem blocks4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) ≤ 24
    ∧ win4_2.index t (1 : Fin 2) = 0 :=
  (by decide +kernel : ∀ t : Fin grid4.N, _)

/-- Every block of rows of the output array is some point's. -/
theorem blocks4_onto : ∀ q : Fin 25, ∃ t : Fin cfg4.N, win4_2.index t = ![q.val, 0] :=
  (by decide +kernel : ∀ q : Fin 25, ∃ t : Fin grid4.N, win4_2.index t = ![q.val, 0])

variable (V : (c : Dev nD) → (b : Ref sig .tc) → Buf (Elt Ideal) ((c : Thread nD τ).loc b))

/-- What point t writes back is block t of the product of the two whole arrays. -/
theorem writeback4 (c : Dev nD) (t : Fin cfg4.N) :
    (dat4 (F := Ideal) V c).flushed 2 t
      = ((cfg4.win 2).blk t).view.read (Elt Ideal) (Cert.Dense.rowsTimes (V c main_v63) (V c main_arg6)) := by
  show (cfg4.win 2).cut (grid4.coords t) ((dat4 (F := Ideal) V c).after 2 t) = _
  rw [after4_2]
  unfold out4_2
  rw [View.canon_unit_zero origin4]
  simp only [View.ld_unit_zero (S := S2000x128) origin4, View.ld_unit_zero (S := S128x64) origin4]
  obtain ⟨e0, e1, e2, e3, e4, e5⟩ := blocks4 t
  funext j
  show k4_pay1 (iblk4 V c 0 t) (iblk4 V c 1 t) j
    = Cert.Dense.rowsTimes (V c main_v63) (V c main_arg6) (((cfg4.win 2).blk t).view.emb j)
  refine body4_of_rows (V c main_v63) (V c main_arg6) (iblk4 V c 0 t) (iblk4 V c 1 t) j _ (fun k => ?_) (fun k => ?_)
  · show V c main_v63 (((cfg4.win 0).blk t).view.emb (ix2 (j 0 : Fin 2000) k))
      = V c main_v63 (ix2 ((((cfg4.win 2).blk t).view.emb j) 0 : Fin 50000) k)
    refine congrArg (V c main_v63) (funext fun a => Fin.ext ?_)
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 128 + 1 * k.val = k.val; omega
  · show V c main_arg6 (((cfg4.win 1).blk t).view.emb (ix2 k (j 1 : Fin 64)))
      = V c main_arg6 (ix2 k ((((cfg4.win 2).blk t).view.emb j) 1 : Fin 64))
    refine congrArg (V c main_arg6) (funext fun a => Fin.ext ?_)
    match a with
    | ⟨0, _⟩ => show win4_1.index t (0 : Fin 2) * 128 + 1 * k.val = k.val; omega
    | ⟨1, _⟩ => show win4_1.index t (1 : Fin 2) * 64 + 1 * (j 1).val = win4_2.index t (1 : Fin 2) * 64 + 1 * (j 1).val; omega

/-- An index of the output array is in point t's block iff each coordinate is in the block's range on its axis. -/
theorem mem_block4 (t : Fin cfg4.N) (i : S50000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v64).slice (win4_2.rect t)).set ↔ _
  rw [View.set_slice_whole, Rect.mem_set_unit]
  exact Iff.rfl

/-- Every index of the output array is in the block of the point that handles its row: row r is in block r / 2000. -/
theorem covered4 (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := blocks4_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_block4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 64 ≤ (i 1).val ∧ (i 1).val < win4_2.index t (1 : Fin 2) * 64 + 64; omega

/-- REGION 4: after its 25 points the output array holds the product of its two input arrays. -/
theorem product4 (c : Dev nD) :
    (dat4 (F := Ideal) V c).arrAt 2 cfg4.N = Cert.Dense.rowsTimes (V c main_v63) (V c main_arg6) :=
  (dat4 (F := Ideal) V c).arrAt_eq_of_cover 2 (Cert.Dense.rowsTimes (V c main_v63) (V c main_arg6))
    (fun t _ => writeback4 V c t) covered4

end Cert.KernelIdeal.RegionValue

end
-- ==== Proof.HiddenRegion1.lean ====
/-
  Region 1 of the program: rows plus a bias row, then the maximum with zero, block by block.

  The region walks 25 points; point t takes rows 2000·t … 2000·t + 1999 of the [50000, 128] array, adds the one bias
  row to each of them and takes the maximum with zero, and writes the 2000 rows back to the same rows of the result.
  Since the operation acts on every row by itself, what point t writes is exactly rows 2000·t … of ONE function of
  the two whole arrays, `Cert.Dense.hiddenRows`; the 25 blocks cover all 50000 rows, so the result array ends
  holding that function.
-/
import proofs.«128856_j5995774345733_1_alg».proof.Proof.Gen.KernelIdeal.Frame
import proofs.«128856_j5995774345733_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, as a constant function. -/
theorem zeroOffsets1 : (![0, 0] : Fin 2 → Nat) = fun _ => 0 := funext fun a => by fin_cases a <;> rfl

/-- The body's arithmetic at row `p`, column `q` of a block: the block's entry plus the bias row's entry at `q`,
    then the maximum with zero. -/
theorem biasRelu1_at (x0 : Vec Ideal S2000x128 .f32) (x1 : Vec Ideal S1x128 .f32) (p : Fin 2000) (q : Fin 128) :
    k1_pay1 x0 x1 (ix2 p q) = max (x0 (ix2 p q) + x1 (ix2 (0 : Fin 1) q)) (Ideal.ofBits .f32 0x00000000#32) := by
  unfold k1_pay1
  simp only [shapeCast_self]
  rw [maximumf_apply, addf_apply, broadcast_apply, broadcastTo_1b_ab_apply]
  rfl

/-- The same at any index `j` of the block, against the whole arrays: if the block holds at `j` what the array `a`
    holds at `i`, in the same column, and the bias row is `b`, the body leaves `hiddenRows a b` at `i`. -/
theorem biasRelu1_eq (x0 : Vec Ideal S2000x128 .f32) (x1 : Vec Ideal S1x128 .f32)
    (a : S50000x128.Idx → EReal) (b : S1x128.Idx → EReal) (j : S2000x128.Idx) (i : S50000x128.Idx)
    (hcol : (i 1).val = (j 1).val) (h0 : x0 j = a i) (h1 : ∀ q : Fin 128, x1 (ix2 (0 : Fin 1) q) = b (ix2 (0 : Fin 1) q)) :
    k1_pay1 x0 x1 j = Cert.Dense.hiddenRows a b i := by
  obtain ⟨p, q, rfl⟩ : ∃ (p : Fin 2000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q' = q := Fin.ext hcol
  rw [biasRelu1_at, Cert.Dense.hiddenRows_apply, h0, h1]

/-- The printed index maps over the grid: point `t` reads block `t` of the rows and the one bias block, and writes
    block `t` of the result. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- What point `t` writes back is block `t` of `hiddenRows` of the two arrays as the region finds them. -/
theorem written1 (c : Dev nD) (t : Fin cfg1.N) :
    (dat1 (F := Ideal) V c).flushed 2 t
      = ((cfg1.win 2).blk t).view.read (Elt Ideal) (Cert.Dense.hiddenRows (V c main_v46) (V c main_v47)) := by
  show (cfg1.win 2).cut (grid1.coords t) ((dat1 V c).after 2 t) = _
  rw [after1_2]
  unfold out1_2
  rw [View.canon_unit_zero zeroOffsets1]
  simp only [View.ld_unit_zero (S := S2000x128) zeroOffsets1, View.ld_unit_zero (S := S1x128) zeroOffsets1]
  obtain ⟨e0, e1, e2, e3, e4, e5⟩ := blockIndex1 t
  funext j
  show k1_pay1 (iblk1 V c 0 t) (iblk1 V c 1 t) j
    = Cert.Dense.hiddenRows (V c main_v46) (V c main_v47) (((cfg1.win 2).blk t).view.emb j)
  refine biasRelu1_eq _ _ _ _ j _ ?_ ?_ ?_
  · show win1_2.index t (1 : Fin 2) * 128 + 1 * (j 1).val = (j 1).val
    omega
  · show V c main_v46 (((cfg1.win 0).blk t).view.emb j) = V c main_v46 (((cfg1.win 2).blk t).view.emb j)
    refine congrArg _ ?_
    funext ax; apply Fin.ext
    match ax with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  · intro q
    show V c main_v47 (((cfg1.win 1).blk t).view.emb (ix2 (0 : Fin 1) q)) = V c main_v47 (ix2 (0 : Fin 1) q)
    refine congrArg _ ?_
    funext ax; apply Fin.ext
    match ax with
    | ⟨0, _⟩ => show win1_1.index t (0 : Fin 2) * 1 + 1 * 0 = 0; omega
    | ⟨1, _⟩ => show win1_1.index t (1 : Fin 2) * 128 + 1 * q.val = q.val; omega

/-- An index of the result array is in point `t`'s block iff each coordinate is in the block's range on its axis. -/
theorem inBlock1 (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v48).slice (win1_2.rect t)).set ↔ _
  rw [View.set_slice_whole, Rect.mem_set_unit]
  exact Iff.rfl

/-- Every row of the result lies in some point's block: row `r` in point `r / 2000`'s. -/
theorem allRows1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_2 _, ?_⟩
  rw [inBlock1]
  obtain ⟨-, -, -, -, e4, e5⟩ := blockIndex1 ⟨(i 0).val / 2000, by rw [hN]; omega⟩
  intro a
  match a with
  | ⟨0, _⟩ =>
    show win1_2.index _ (0 : Fin 2) * 2000 ≤ (i 0).val ∧ (i 0).val < win1_2.index _ (0 : Fin 2) * 2000 + 2000
    rw [e4]; show (i 0).val / 2000 * 2000 ≤ (i 0).val ∧ (i 0).val < (i 0).val / 2000 * 2000 + 2000; omega
  | ⟨1, _⟩ =>
    show win1_2.index _ (1 : Fin 2) * 128 ≤ (i 1).val ∧ (i 1).val < win1_2.index _ (1 : Fin 2) * 128 + 128
    rw [e5]; omega

/-- THE REGION'S RESULT: after all 25 points the result array holds, at every (r, k), the maximum with zero of the
    entry array's (r, k) plus the bias row's k. -/
theorem hidden1 (c : Dev nD) :
    (dat1 (F := Ideal) V c).arrAt 2 cfg1.N = Cert.Dense.hiddenRows (V c main_v46) (V c main_v47) :=
  (dat1 (F := Ideal) V c).arrAt_eq_of_cover 2 (Cert.Dense.hiddenRows (V c main_v46) (V c main_v47))
    (fun t _ => written1 V c t) (allRows1)

end

end Cert.KernelIdeal.RegionValue

end
-- ==== Proof.HiddenRegion3.lean ====
/-
  Region 3 of the program: rows plus a bias row, then the maximum with zero, block by block.

  The region walks 25 points; point t takes rows 2000·t … 2000·t + 1999 of the [50000, 128] array, adds the one bias
  row to each of them and takes the maximum with zero, and writes the 2000 rows back to the same rows of the result.
  Since the operation acts on every row by itself, what point t writes is exactly rows 2000·t … of ONE function of
  the two whole arrays, `Cert.Dense.hiddenRows`; the 25 blocks cover all 50000 rows, so the result array ends
  holding that function.
-/
import proofs.«128856_j5995774345733_1_alg».proof.Proof.Gen.KernelIdeal.Frame
import proofs.«128856_j5995774345733_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, as a constant function. -/
theorem zeroOffsets3 : (![0, 0] : Fin 2 → Nat) = fun _ => 0 := funext fun a => by fin_cases a <;> rfl

/-- The body's arithmetic at row `p`, column `q` of a block: the block's entry plus the bias row's entry at `q`,
    then the maximum with zero. -/
theorem biasRelu3_at (x0 : Vec Ideal S2000x128 .f32) (x1 : Vec Ideal S1x128 .f32) (p : Fin 2000) (q : Fin 128) :
    k3_pay1 x0 x1 (ix2 p q) = max (x0 (ix2 p q) + x1 (ix2 (0 : Fin 1) q)) (Ideal.ofBits .f32 0x00000000#32) := by
  unfold k3_pay1
  simp only [shapeCast_self]
  rw [maximumf_apply, addf_apply, broadcast_apply, broadcastTo_1b_ab_apply]
  rfl

/-- The same at any index `j` of the block, against the whole arrays: if the block holds at `j` what the array `a`
    holds at `i`, in the same column, and the bias row is `b`, the body leaves `hiddenRows a b` at `i`. -/
theorem biasRelu3_eq (x0 : Vec Ideal S2000x128 .f32) (x1 : Vec Ideal S1x128 .f32)
    (a : S50000x128.Idx → EReal) (b : S1x128.Idx → EReal) (j : S2000x128.Idx) (i : S50000x128.Idx)
    (hcol : (i 1).val = (j 1).val) (h0 : x0 j = a i) (h1 : ∀ q : Fin 128, x1 (ix2 (0 : Fin 1) q) = b (ix2 (0 : Fin 1) q)) :
    k3_pay1 x0 x1 j = Cert.Dense.hiddenRows a b i := by
  obtain ⟨p, q, rfl⟩ : ∃ (p : Fin 2000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q' = q := Fin.ext hcol
  rw [biasRelu3_at, Cert.Dense.hiddenRows_apply, h0, h1]

/-- The printed index maps over the grid: point `t` reads block `t` of the rows and the one bias block, and writes
    block `t` of the result. -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b))

/-- What point `t` writes back is block `t` of `hiddenRows` of the two arrays as the region finds them. -/
theorem written3 (c : Dev nD) (t : Fin cfg3.N) :
    (dat3 (F := Ideal) V c).flushed 2 t
      = ((cfg3.win 2).blk t).view.read (Elt Ideal) (Cert.Dense.hiddenRows (V c main_v61) (V c main_v62)) := by
  show (cfg3.win 2).cut (grid3.coords t) ((dat3 V c).after 2 t) = _
  rw [after3_2]
  unfold out3_2
  rw [View.canon_unit_zero zeroOffsets3]
  simp only [View.ld_unit_zero (S := S2000x128) zeroOffsets3, View.ld_unit_zero (S := S1x128) zeroOffsets3]
  obtain ⟨e0, e1, e2, e3, e4, e5⟩ := blockIndex3 t
  funext j
  show k3_pay1 (iblk3 V c 0 t) (iblk3 V c 1 t) j
    = Cert.Dense.hiddenRows (V c main_v61) (V c main_v62) (((cfg3.win 2).blk t).view.emb j)
  refine biasRelu3_eq _ _ _ _ j _ ?_ ?_ ?_
  · show win3_2.index t (1 : Fin 2) * 128 + 1 * (j 1).val = (j 1).val
    omega
  · show V c main_v61 (((cfg3.win 0).blk t).view.emb j) = V c main_v61 (((cfg3.win 2).blk t).view.emb j)
    refine congrArg _ ?_
    funext ax; apply Fin.ext
    match ax with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * (j 1).val = win3_2.index t (1 : Fin 2) * 128 + 1 * (j 1).val; omega
  · intro q
    show V c main_v62 (((cfg3.win 1).blk t).view.emb (ix2 (0 : Fin 1) q)) = V c main_v62 (ix2 (0 : Fin 1) q)
    refine congrArg _ ?_
    funext ax; apply Fin.ext
    match ax with
    | ⟨0, _⟩ => show win3_1.index t (0 : Fin 2) * 1 + 1 * 0 = 0; omega
    | ⟨1, _⟩ => show win3_1.index t (1 : Fin 2) * 128 + 1 * q.val = q.val; omega

/-- An index of the result array is in point `t`'s block iff each coordinate is in the block's range on its axis. -/
theorem inBlock3 (t : Fin cfg3.N) (i : S50000x128.Idx) :
    i ∈ ((cfg3.win 2).blk t).view.set ↔ ∀ a : Fin 2, win3_2.index t a * S2000x128.size a ≤ (i a).val
      ∧ (i a).val < win3_2.index t a * S2000x128.size a + S2000x128.size a := by
  show i ∈ ((View.whole main_v63).slice (win3_2.rect t)).set ↔ _
  rw [View.set_slice_whole, Rect.mem_set_unit]
  exact Iff.rfl

/-- Every row of the result lies in some point's block: row `r` in point `r / 2000`'s. -/
theorem allRows3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 25 := N_3
  refine ⟨⟨(i 0).val / 2000, by rw [hN]; omega⟩, flush3_2 _, ?_⟩
  rw [inBlock3]
  obtain ⟨-, -, -, -, e4, e5⟩ := blockIndex3 ⟨(i 0).val / 2000, by rw [hN]; omega⟩
  intro a
  match a with
  | ⟨0, _⟩ =>
    show win3_2.index _ (0 : Fin 2) * 2000 ≤ (i 0).val ∧ (i 0).val < win3_2.index _ (0 : Fin 2) * 2000 + 2000
    rw [e4]; show (i 0).val / 2000 * 2000 ≤ (i 0).val ∧ (i 0).val < (i 0).val / 2000 * 2000 + 2000; omega
  | ⟨1, _⟩ =>
    show win3_2.index _ (1 : Fin 2) * 128 ≤ (i 1).val ∧ (i 1).val < win3_2.index _ (1 : Fin 2) * 128 + 128
    rw [e5]; omega

/-- THE REGION'S RESULT: after all 25 points the result array holds, at every (r, k), the maximum with zero of the
    entry array's (r, k) plus the bias row's k. -/
theorem hidden3 (c : Dev nD) :
    (dat3 (F := Ideal) V c).arrAt 2 cfg3.N = Cert.Dense.hiddenRows (V c main_v61) (V c main_v62) :=
  (dat3 (F := Ideal) V c).arrAt_eq_of_cover 2 (Cert.Dense.hiddenRows (V c main_v61) (V c main_v62))
    (fun t _ => written3 V c t) (allRows3)

end

end Cert.KernelIdeal.RegionValue

end
-- ==== Proof.LogSoftmaxRegion5.lean ====
/-
  Region 5 of the program: rows plus a bias row, then the row-wise log-softmax, block by block.

  The region walks 25 points; point t takes rows 2000·t … 2000·t + 1999 of the [50000, 64] array, adds the one bias
  row to each of them, and for each row z takes its maximum M (from the f32 word of −∞), the differences z − M, the
  sum S of their exponentials, and writes (z − M) − log S back to the same rows of the result. Every row is treated
  by itself, so what point t writes is exactly rows 2000·t … of ONE function of the two whole arrays,
  `Cert.Dense.logSoftmaxRows`; the 25 blocks cover all 50000 rows, so the result array ends holding that function.
-/
import proofs.«128856_j5995774345733_1_alg».proof.Proof.Gen.KernelIdeal.Frame
import proofs.«128856_j5995774345733_1_alg».proof.Proof.LibLogSoftmaxRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## Layout steps of a per-row reduction kept as a column -/

/-- An `[a]` array cast to the column `[a, 1]` reads, at `(p, u)`, the operand at `p`, whatever the unit coordinate. -/
theorem column_of_vector {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcast_of_column {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Over row `p` of an `[a, b]` array, the index with column `k` put back on the dropped axis is `(p, k)`. -/
theorem row_index {a b : ℕ} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-! ## The body's arithmetic on one row -/

/-- The tail of the body after the bias is added: from a block `Z` of biased rows, the row maxima as a column, the
    differences, the sums of exponentials as a column, and the differences minus the logarithms of the sums. -/
def logSoftmaxBlock (Z : FVec Ideal S2000x64 .f32) (hr : S2000x64.Reduces [1] S2000) (hc : S2000.ShapeCasts S2000x1)
    (hb : S2000x1.Broadcasts S2000x64) : FVec Ideal S2000x64 .f32 :=
  subf (subf Z (broadcastTo S2000x64 (shapeCast S2000x1 (multiReduction (F := Ideal) .maximumf [1] S2000 Z 0xFF800000#32 hr (.inl rfl) rfl) hc) hb))
    (broadcastTo S2000x64 (log (shapeCast S2000x1 (multiReduction (F := Ideal) .add [1] S2000
      (exp (subf Z (broadcastTo S2000x64 (shapeCast S2000x1 (multiReduction (F := Ideal) .maximumf [1] S2000 Z 0xFF800000#32 hr (.inl rfl) rfl) hc) hb)))
      0x00000000#32 hr (.inl rfl) rfl) hc)) hb)

/-- The maximum of row `p` of the block, as the reduction leaves it: the fold of `max` over the row from the −∞ word. -/
theorem rowMax_at (Z : FVec Ideal S2000x64 .f32) (hr : S2000x64.Reduces [1] S2000) (p : Fin 2000) :
    multiReduction (F := Ideal) .maximumf [1] S2000 Z 0xFF800000#32 hr (.inl rfl) rfl (ix1 p)
      = Cert.Dense.rowTop (fun k : Fin 64 => Z (ix2 p k)) := by
  refine (Ideal.multiReduction_maximumf_single Z 0xFF800000#32 hr (.inl rfl) rfl (ix1 p)).trans ?_
  have hrow : (Z ∘ hr.lift (ix1 p)) = fun k : Fin 64 => Z (ix2 p k) := funext fun k => congrArg Z (row_index hr p k)
  unfold Cert.Dense.rowTop
  exact congrArg (fun f : Fin 64 → EReal => (Finset.univ : Finset (Fin 64)).fold max (Ideal.ofBits .f32 0xFF800000#32) f) hrow

/-- The body's tail at row `p`, column `q`: the log-softmax of row `p` of the block at `q`. -/
theorem logSoftmaxBlock_at (Z : FVec Ideal S2000x64 .f32) (hr : S2000x64.Reduces [1] S2000) (hc : S2000.ShapeCasts S2000x1)
    (hb : S2000x1.Broadcasts S2000x64) (p : Fin 2000) (q : Fin 64) :
    logSoftmaxBlock Z hr hc hb (ix2 p q) = Cert.Dense.logSoftmaxRow (fun k : Fin 64 => Z (ix2 p k)) q := by
  have hM : ∀ k : Fin 64, subf Z (broadcastTo S2000x64 (shapeCast S2000x1 (multiReduction (F := Ideal) .maximumf [1] S2000 Z 0xFF800000#32 hr (.inl rfl) rfl) hc) hb) (ix2 p k)
      = Z (ix2 p k) - Cert.Dense.rowTop (fun k : Fin 64 => Z (ix2 p k)) := by
    intro k
    rw [subf_apply, broadcast_of_column, column_of_vector, rowMax_at]
  unfold logSoftmaxBlock Cert.Dense.logSoftmaxRow
  rw [subf_apply, hM q, broadcast_of_column]
  show _ - Ideal.log (shapeCast S2000x1 _ hc (ix2 p (0 : Fin 1))) = _
  rw [column_of_vector]
  refine congrArg (fun s : EReal => (Z (ix2 p q) - Cert.Dense.rowTop (fun k : Fin 64 => Z (ix2 p k))) - Ideal.log s) ?_
  refine (Ideal.multiReduction_add_single _ 0x00000000#32 hr (.inl rfl) rfl (ix1 p)).trans ?_
  refine Finset.sum_congr rfl fun k _ => ?_
  rw [row_index hr p k]
  show Ideal.exp (subf Z _ (ix2 p k)) = _
  rw [hM k]

/-- The body's arithmetic at row `p`, column `q` of a block: the log-softmax of the block's row `p` plus the bias row,
    read at column `q`, the block standing as an array of 2000 rows. -/
theorem logSoftmax5_at (x0 : Vec Ideal S2000x64 .f32) (x1 : Vec Ideal S1x64 .f32) (p : Fin 2000) (q : Fin 64) :
    k5_pay1 x0 x1 (ix2 p q) = Cert.Dense.logSoftmaxRows x0 x1 (ix2 p q) := by
  have e : k5_pay1 x0 x1 = logSoftmaxBlock (addf x0 (broadcastTo S2000x64 x1 broadcasts_S1x64_S2000x64))
      reduces_S2000x64_S2000 shapeCasts_S2000_S2000x1 broadcasts_S2000x1_S2000x64 := by
    unfold k5_pay1 logSoftmaxBlock
    simp only [shapeCast_self]
  rw [e, logSoftmaxBlock_at, Cert.Dense.logSoftmaxRows_apply]
  refine congrArg (fun z => Cert.Dense.logSoftmaxRow z q) ?_
  funext k
  unfold Cert.Dense.biasedRow
  rw [addf_apply, broadcastTo_1b_ab_apply]

/-- Against the whole arrays: if row `p` of the block is row `r` of the array `a` and the bias row is `b`, the body
    leaves at `(p, q)` what `logSoftmaxRows a b` has at `(r, q)`. -/
theorem logSoftmax5_eq (x0 : Vec Ideal S2000x64 .f32) (x1 : Vec Ideal S1x64 .f32)
    (a : S50000x64.Idx → EReal) (b : S1x64.Idx → EReal) (p : Fin 2000) (q : Fin 64) (r : Fin 50000)
    (h0 : ∀ k : Fin 64, x0 (ix2 p k) = a (ix2 r k)) (h1 : ∀ k : Fin 64, x1 (ix2 (0 : Fin 1) k) = b (ix2 (0 : Fin 1) k)) :
    k5_pay1 x0 x1 (ix2 p q) = Cert.Dense.logSoftmaxRows a b (ix2 r q) :=
  (logSoftmax5_at x0 x1 p q).trans (Cert.Dense.logSoftmaxRows_congr a b x0 x1 r p q h0 h1)

/-! ## From the blocks to the array -/

/-- The zero offsets of a whole-block access, as a constant function. -/
theorem zeroOffsets5 : (![0, 0] : Fin 2 → Nat) = fun _ => 0 := funext fun a => by fin_cases a <;> rfl

/-- The printed index maps over the grid: point `t` reads block `t` of the rows and the one bias block, and writes
    block `t` of the result. -/
theorem blockIndex5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

section
variable (V : (c : Dev nD) → (b : Ref sig .tc) → Buf (Elt Ideal) ((c : Thread nD τ).loc b))

/-- What point `t` writes back is block `t` of `logSoftmaxRows` of the two arrays as the region finds them. -/
theorem written5 (c : Dev nD) (t : Fin cfg5.N) :
    (dat5 (F := Ideal) V c).flushed 2 t
      = ((cfg5.win 2).blk t).view.read (Elt Ideal) (Cert.Dense.logSoftmaxRows (V c main_v76) (V c main_v77)) := by
  show (cfg5.win 2).cut (grid5.coords t) ((dat5 V c).after 2 t) = _
  rw [after5_2]
  unfold out5_2
  rw [View.canon_unit_zero zeroOffsets5]
  simp only [View.ld_unit_zero (S := S2000x64) zeroOffsets5, View.ld_unit_zero (S := S1x64) zeroOffsets5]
  obtain ⟨e0, e1, e2, e3, e4, e5⟩ := blockIndex5 t
  have ht : t.val < 25 := by have h := t.isLt; have hN : cfg5.N = 25 := N_5; omega
  refine funext fun (j : S2000x64.Idx) => ?_
  obtain ⟨p, q, rfl⟩ : ∃ (p : Fin 2000) (q : Fin 64), j = ix2 p q := ⟨j 0, j 1, eq_ix2 j⟩
  have hp : p.val < 2000 := p.isLt
  have hrow : ((cfg5.win 2).blk t).view.emb (ix2 p q) = ix2 (⟨t.val * 2000 + p.val, by omega⟩ : Fin 50000) q := by
    funext ax; apply Fin.ext
    match ax with
    | ⟨0, _⟩ => show win5_2.index t (0 : Fin 2) * 2000 + 1 * p.val = t.val * 2000 + p.val; omega
    | ⟨1, _⟩ => show win5_2.index t (1 : Fin 2) * 64 + 1 * q.val = q.val; omega
  show k5_pay1 (iblk5 V c 0 t) (iblk5 V c 1 t) (ix2 p q)
    = Cert.Dense.logSoftmaxRows (V c main_v76) (V c main_v77) (((cfg5.win 2).blk t).view.emb (ix2 p q))
  refine (logSoftmax5_eq _ _ (V c main_v76) (V c main_v77) p q ⟨t.val * 2000 + p.val, by omega⟩ ?_ ?_).trans
    (congrArg (Cert.Dense.logSoftmaxRows (V c main_v76) (V c main_v77)) hrow.symm)
  · intro k
    show V c main_v76 (((cfg5.win 0).blk t).view.emb (ix2 p k)) = V c main_v76 (ix2 (⟨t.val * 2000 + p.val, by omega⟩ : Fin 50000) k)
    refine congrArg _ ?_
    funext ax; apply Fin.ext
    match ax with
    | ⟨0, _⟩ => show win5_0.index t (0 : Fin 2) * 2000 + 1 * p.val = t.val * 2000 + p.val; omega
    | ⟨1, _⟩ => show win5_0.index t (1 : Fin 2) * 64 + 1 * k.val = k.val; omega
  · intro k
    show V c main_v77 (((cfg5.win 1).blk t).view.emb (ix2 (0 : Fin 1) k)) = V c main_v77 (ix2 (0 : Fin 1) k)
    refine congrArg _ ?_
    funext ax; apply Fin.ext
    match ax with
    | ⟨0, _⟩ => show win5_1.index t (0 : Fin 2) * 1 + 1 * 0 = 0; omega
    | ⟨1, _⟩ => show win5_1.index t (1 : Fin 2) * 64 + 1 * k.val = k.val; omega

/-- An index of the result array is in point `t`'s block iff each coordinate is in the block's range on its axis. -/
theorem inBlock5 (t : Fin cfg5.N) (i : S50000x64.Idx) :
    i ∈ ((cfg5.win 2).blk t).view.set ↔ ∀ a : Fin 2, win5_2.index t a * S2000x64.size a ≤ (i a).val
      ∧ (i a).val < win5_2.index t a * S2000x64.size a + S2000x64.size a := by
  show i ∈ ((View.whole main_v78).slice (win5_2.rect t)).set ↔ _
  rw [View.set_slice_whole, Rect.mem_set_unit]
  exact Iff.rfl

/-- Every row of the result lies in some point's block: row `r` in point `r / 2000`'s. -/
theorem allRows5 (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  have hN : cfg5.N = 25 := N_5
  refine ⟨⟨(i 0).val / 2000, by rw [hN]; omega⟩, flush5_2 _, ?_⟩
  rw [inBlock5]
  obtain ⟨-, -, -, -, e4, e5⟩ := blockIndex5 ⟨(i 0).val / 2000, by rw [hN]; omega⟩
  intro a
  match a with
  | ⟨0, _⟩ =>
    show win5_2.index _ (0 : Fin 2) * 2000 ≤ (i 0).val ∧ (i 0).val < win5_2.index _ (0 : Fin 2) * 2000 + 2000
    rw [e4]; show (i 0).val / 2000 * 2000 ≤ (i 0).val ∧ (i 0).val < (i 0).val / 2000 * 2000 + 2000; omega
  | ⟨1, _⟩ =>
    show win5_2.index _ (1 : Fin 2) * 64 ≤ (i 1).val ∧ (i 1).val < win5_2.index _ (1 : Fin 2) * 64 + 64
    rw [e5]; omega

/-- THE REGION'S RESULT: after all 25 points the result array holds, at every (r, q), the log-softmax of row `r` of the
    entry array plus the bias row, read at column `q`. -/
theorem logits5 (c : Dev nD) :
    (dat5 (F := Ideal) V c).arrAt 2 cfg5.N = Cert.Dense.logSoftmaxRows (V c main_v76) (V c main_v77) :=
  (dat5 (F := Ideal) V c).arrAt_eq_of_cover 2 (Cert.Dense.logSoftmaxRows (V c main_v76) (V c main_v77))
    (fun t _ => written5 V c t) (allRows5)

end

end Cert.KernelIdeal.RegionValue

end
-- ==== Proof.KernelFold.lean ====
/-
  The kernel program's result, read through its twelve segments.

  The contents of every buffer at each segment boundary are a fold from the launch memory. Read at the buffers that
  matter the fold is short: the message edges and the column of edge weights are made by the first three stretches
  and never written again; each grid region leaves its output array at one function of its two input arrays (a
  product of the whole arrays; the rows plus the bias row, then the maximum with zero; the rows plus the bias row,
  then the row-wise log-softmax) and every other buffer alone; each stretch between regions is one round of message
  passing. Composed, the result buffer ends at `network` of the eight arguments.
-/
import proofs.«128856_j5995774345733_1_alg».proof.Proof.KernelRun
import proofs.«128856_j5995774345733_1_alg».proof.Proof.KernelStretches
import proofs.«128856_j5995774345733_1_alg».proof.Proof.ProductRegion0
import proofs.«128856_j5995774345733_1_alg».proof.Proof.ProductRegion2
import proofs.«128856_j5995774345733_1_alg».proof.Proof.ProductRegion4
import proofs.«128856_j5995774345733_1_alg».proof.Proof.HiddenRegion1
import proofs.«128856_j5995774345733_1_alg».proof.Proof.HiddenRegion3
import proofs.«128856_j5995774345733_1_alg».proof.Proof.LogSoftmaxRegion5

set_option maxRecDepth 16384

noncomputable section

namespace Cert.KernelIdeal.RunValue

open Cert.KernelIdeal Cert.KernelIdeal.Gen Cert.KernelIdeal.HostValue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem arg0_W3 : W3 (F := Ideal) m ρ c (Proc.devRef .tc main_arg0) = m ((c.tc : Thread nD τ).loc main_arg0) :=
  (keep02_arg0 _).trans ((keep01_arg0 _).trans ((keep0_arg0 _).trans rfl))

theorem arg2_W3 : W3 (F := Ideal) m ρ c (Proc.devRef .tc main_arg2) = m ((c.tc : Thread nD τ).loc main_arg2) :=
  (keep02_arg2 _).trans ((keep01_arg2 _).trans ((keep0_arg2 _).trans rfl))

theorem arg3_W3 : W3 (F := Ideal) m ρ c (Proc.devRef .tc main_arg3) = m ((c.tc : Thread nD τ).loc main_arg3) :=
  (keep02_arg3 _).trans ((keep01_arg3 _).trans ((keep0_arg3 _).trans rfl))

theorem arg4_W3 : W3 (F := Ideal) m ρ c (Proc.devRef .tc main_arg4) = m ((c.tc : Thread nD τ).loc main_arg4) :=
  (keep02_arg4 _).trans ((keep01_arg4 _).trans ((keep0_arg4 _).trans rfl))

theorem arg5_W3 : W3 (F := Ideal) m ρ c (Proc.devRef .tc main_arg5) = m ((c.tc : Thread nD τ).loc main_arg5) :=
  (keep02_arg5 _).trans ((keep01_arg5 _).trans ((keep0_arg5 _).trans rfl))

theorem arg6_W3 : W3 (F := Ideal) m ρ c (Proc.devRef .tc main_arg6) = m ((c.tc : Thread nD τ).loc main_arg6) :=
  (keep02_arg6 _).trans ((keep01_arg6 _).trans ((keep0_arg6 _).trans rfl))

theorem arg7_W3 : W3 (F := Ideal) m ρ c (Proc.devRef .tc main_arg7) = m ((c.tc : Thread nD τ).loc main_arg7) :=
  (keep02_arg7 _).trans ((keep01_arg7 _).trans ((keep0_arg7 _).trans rfl))

theorem arg3_W4 : W4 (F := Ideal) m ρ c (Proc.devRef .tc main_arg3) = m ((c.tc : Thread nD τ).loc main_arg3) :=
  (W4_of_ne m ρ c main_arg3 (by decide)).trans (arg3_W3 m ρ c)

theorem arg4_W4 : W4 (F := Ideal) m ρ c (Proc.devRef .tc main_arg4) = m ((c.tc : Thread nD τ).loc main_arg4) :=
  (W4_of_ne m ρ c main_arg4 (by decide)).trans (arg4_W3 m ρ c)

theorem arg5_W4 : W4 (F := Ideal) m ρ c (Proc.devRef .tc main_arg5) = m ((c.tc : Thread nD τ).loc main_arg5) :=
  (W4_of_ne m ρ c main_arg5 (by decide)).trans (arg5_W3 m ρ c)

theorem arg6_W4 : W4 (F := Ideal) m ρ c (Proc.devRef .tc main_arg6) = m ((c.tc : Thread nD τ).loc main_arg6) :=
  (W4_of_ne m ρ c main_arg6 (by decide)).trans (arg6_W3 m ρ c)

theorem arg7_W4 : W4 (F := Ideal) m ρ c (Proc.devRef .tc main_arg7) = m ((c.tc : Thread nD τ).loc main_arg7) :=
  (W4_of_ne m ρ c main_arg7 (by decide)).trans (arg7_W3 m ρ c)

theorem arg4_W6 : W6 (F := Ideal) m ρ c (Proc.devRef .tc main_arg4) = m ((c.tc : Thread nD τ).loc main_arg4) :=
  (W6_of_ne m ρ c main_arg4 (by decide)).trans ((keep1_arg4 _).trans (arg4_W4 m ρ c))

theorem arg5_W6 : W6 (F := Ideal) m ρ c (Proc.devRef .tc main_arg5) = m ((c.tc : Thread nD τ).loc main_arg5) :=
  (W6_of_ne m ρ c main_arg5 (by decide)).trans ((keep1_arg5 _).trans (arg5_W4 m ρ c))

theorem arg6_W6 : W6 (F := Ideal) m ρ c (Proc.devRef .tc main_arg6) = m ((c.tc : Thread nD τ).loc main_arg6) :=
  (W6_of_ne m ρ c main_arg6 (by decide)).trans ((keep1_arg6 _).trans (arg6_W4 m ρ c))

theorem arg7_W6 : W6 (F := Ideal) m ρ c (Proc.devRef .tc main_arg7) = m ((c.tc : Thread nD τ).loc main_arg7) :=
  (W6_of_ne m ρ c main_arg7 (by decide)).trans ((keep1_arg7 _).trans (arg7_W4 m ρ c))

theorem arg5_W7 : W7 (F := Ideal) m ρ c (Proc.devRef .tc main_arg5) = m ((c.tc : Thread nD τ).loc main_arg5) :=
  (W7_of_ne m ρ c main_arg5 (by decide)).trans (arg5_W6 m ρ c)

theorem arg6_W7 : W7 (F := Ideal) m ρ c (Proc.devRef .tc main_arg6) = m ((c.tc : Thread nD τ).loc main_arg6) :=
  (W7_of_ne m ρ c main_arg6 (by decide)).trans (arg6_W6 m ρ c)

theorem arg7_W7 : W7 (F := Ideal) m ρ c (Proc.devRef .tc main_arg7) = m ((c.tc : Thread nD τ).loc main_arg7) :=
  (W7_of_ne m ρ c main_arg7 (by decide)).trans (arg7_W6 m ρ c)

theorem arg6_W9 : W9 (F := Ideal) m ρ c (Proc.devRef .tc main_arg6) = m ((c.tc : Thread nD τ).loc main_arg6) :=
  (W9_of_ne m ρ c main_arg6 (by decide)).trans ((keep3_arg6 _).trans (arg6_W7 m ρ c))

theorem arg7_W9 : W9 (F := Ideal) m ρ c (Proc.devRef .tc main_arg7) = m ((c.tc : Thread nD τ).loc main_arg7) :=
  (W9_of_ne m ρ c main_arg7 (by decide)).trans ((keep3_arg7 _).trans (arg7_W7 m ρ c))

theorem arg7_W10 : W10 (F := Ideal) m ρ c (Proc.devRef .tc main_arg7) = m ((c.tc : Thread nD τ).loc main_arg7) :=
  (W10_of_ne m ρ c main_arg7 (by decide)).trans (arg7_W9 m ρ c)

theorem src_W1 : W1 (F := Ideal) m ρ c (Proc.devRef .tc main_v3) = edgeSource (m ((c.tc : Thread nD τ).loc main_arg1)) :=
  (ops0_source _).trans rfl

theorem tgt_W1 : W1 (F := Ideal) m ρ c (Proc.devRef .tc main_v7) = edgeTarget (m ((c.tc : Thread nD τ).loc main_arg1)) :=
  (ops0_target _).trans rfl

theorem src_W2 : W2 (F := Ideal) m ρ c (Proc.devRef .tc main_v3) = edgeSource (m ((c.tc : Thread nD τ).loc main_arg1)) :=
  (keep01_v3 _).trans (src_W1 m ρ c)

theorem tgt_W2 : W2 (F := Ideal) m ρ c (Proc.devRef .tc main_v7) = edgeTarget (m ((c.tc : Thread nD τ).loc main_arg1)) :=
  (keep01_v7 _).trans (tgt_W1 m ρ c)

theorem src_W3 : W3 (F := Ideal) m ρ c (Proc.devRef .tc main_v3) = edgeSource (m ((c.tc : Thread nD τ).loc main_arg1)) :=
  (keep02_v3 _).trans (src_W2 m ρ c)

theorem tgt_W3 : W3 (F := Ideal) m ρ c (Proc.devRef .tc main_v7) = edgeTarget (m ((c.tc : Thread nD τ).loc main_arg1)) :=
  (keep02_v7 _).trans (tgt_W2 m ρ c)

theorem weight_W2 : W2 (F := Ideal) m ρ c (Proc.devRef .tc main_v17) = nodeWeight (edgeTarget (m ((c.tc : Thread nD τ).loc main_arg1))) :=
  by
  refine (ops01_weight _).trans ?_
  rw [show W1 (F := Ideal) m ρ c (Proc.devRef .tc main_v13) = _ from (ops0_positive _).trans rfl, show W1 (F := Ideal) m ρ c (Proc.devRef .tc main_v16) = _ from (ops0_rsqrt _).trans rfl,
    show W1 (F := Ideal) m ρ c (Proc.devRef .tc main_cst_3) = _ from ops0_zero _]
  rfl

theorem col_W3 : W3 (F := Ideal) m ρ c (Proc.devRef .tc main_v33) = weightColumn (edgeSource (m ((c.tc : Thread nD τ).loc main_arg1))) (edgeTarget (m ((c.tc : Thread nD τ).loc main_arg1))) :=
  by
  refine (ops02_column _).trans ?_
  rw [weight_W2 m ρ c, src_W2 m ρ c, tgt_W2 m ρ c, weightColumn_eq]

theorem src_W4 : W4 (F := Ideal) m ρ c (Proc.devRef .tc main_v3) = edgeSource (m ((c.tc : Thread nD τ).loc main_arg1)) :=
  (W4_of_ne m ρ c main_v3 (by decide)).trans (src_W3 m ρ c)

theorem tgt_W4 : W4 (F := Ideal) m ρ c (Proc.devRef .tc main_v7) = edgeTarget (m ((c.tc : Thread nD τ).loc main_arg1)) :=
  (W4_of_ne m ρ c main_v7 (by decide)).trans (tgt_W3 m ρ c)

theorem col_W4 : W4 (F := Ideal) m ρ c (Proc.devRef .tc main_v33) = weightColumn (edgeSource (m ((c.tc : Thread nD τ).loc main_arg1))) (edgeTarget (m ((c.tc : Thread nD τ).loc main_arg1))) :=
  (W4_of_ne m ρ c main_v33 (by decide)).trans (col_W3 m ρ c)

theorem prod_W4 : W4 (F := Ideal) m ρ c (Proc.devRef .tc main_v34) = Cert.Dense.rowsTimes (m ((c.tc : Thread nD τ).loc main_arg0)) (m ((c.tc : Thread nD τ).loc main_arg2)) :=
  by
  refine (W4_arr m ρ c 2).trans ((RegionValue.product0 (V3 m ρ) c).trans ?_)
  rw [show V3 (F := Ideal) m ρ c main_arg0 = _ from arg0_W3 m ρ c, show V3 (F := Ideal) m ρ c main_arg2 = _ from arg2_W3 m ρ c]

theorem sum_W5 : W5 (F := Ideal) m ρ c (Proc.devRef .tc main_v46) = aggregate128 (Cert.Dense.rowsTimes (m ((c.tc : Thread nD τ).loc main_arg0)) (m ((c.tc : Thread nD τ).loc main_arg2))) (edgeSource (m ((c.tc : Thread nD τ).loc main_arg1))) (edgeTarget (m ((c.tc : Thread nD τ).loc main_arg1))) (weightColumn (edgeSource (m ((c.tc : Thread nD τ).loc main_arg1))) (edgeTarget (m ((c.tc : Thread nD τ).loc main_arg1)))) :=
  by
  refine (ops1_sum _).trans ?_
  rw [prod_W4 m ρ c, src_W4 m ρ c, tgt_W4 m ρ c, col_W4 m ρ c]

theorem bias_W5 : W5 (F := Ideal) m ρ c (Proc.devRef .tc main_v47) = biasRow128 (m ((c.tc : Thread nD τ).loc main_arg3)) :=
  by
  refine (ops1_bias _).trans ?_
  rw [arg3_W4 m ρ c]

theorem src_W5 : W5 (F := Ideal) m ρ c (Proc.devRef .tc main_v3) = edgeSource (m ((c.tc : Thread nD τ).loc main_arg1)) :=
  (keep1_v3 _).trans (src_W4 m ρ c)

theorem tgt_W5 : W5 (F := Ideal) m ρ c (Proc.devRef .tc main_v7) = edgeTarget (m ((c.tc : Thread nD τ).loc main_arg1)) :=
  (keep1_v7 _).trans (tgt_W4 m ρ c)

theorem col_W5 : W5 (F := Ideal) m ρ c (Proc.devRef .tc main_v33) = weightColumn (edgeSource (m ((c.tc : Thread nD τ).loc main_arg1))) (edgeTarget (m ((c.tc : Thread nD τ).loc main_arg1))) :=
  (keep1_v33 _).trans (col_W4 m ρ c)

theorem src_W6 : W6 (F := Ideal) m ρ c (Proc.devRef .tc main_v3) = edgeSource (m ((c.tc : Thread nD τ).loc main_arg1)) :=
  (W6_of_ne m ρ c main_v3 (by decide)).trans (src_W5 m ρ c)

theorem tgt_W6 : W6 (F := Ideal) m ρ c (Proc.devRef .tc main_v7) = edgeTarget (m ((c.tc : Thread nD τ).loc main_arg1)) :=
  (W6_of_ne m ρ c main_v7 (by decide)).trans (tgt_W5 m ρ c)

theorem col_W6 : W6 (F := Ideal) m ρ c (Proc.devRef .tc main_v33) = weightColumn (edgeSource (m ((c.tc : Thread nD τ).loc main_arg1))) (edgeTarget (m ((c.tc : Thread nD τ).loc main_arg1))) :=
  (W6_of_ne m ρ c main_v33 (by decide)).trans (col_W5 m ρ c)

theorem hid_W6 : W6 (F := Ideal) m ρ c (Proc.devRef .tc main_v48) = HostValue.hidden1 (m ((c.tc : Thread nD τ).loc main_arg0)) (m ((c.tc : Thread nD τ).loc main_arg1)) (m ((c.tc : Thread nD τ).loc main_arg2)) (m ((c.tc : Thread nD τ).loc main_arg3)) :=
  by
  refine (W6_arr m ρ c 2).trans ((RegionValue.hidden1 (V5 m ρ) c).trans ?_)
  rw [show V5 (F := Ideal) m ρ c main_v46 = _ from sum_W5 m ρ c, show V5 (F := Ideal) m ρ c main_v47 = _ from bias_W5 m ρ c]
  rfl

theorem src_W7 : W7 (F := Ideal) m ρ c (Proc.devRef .tc main_v3) = edgeSource (m ((c.tc : Thread nD τ).loc main_arg1)) :=
  (W7_of_ne m ρ c main_v3 (by decide)).trans (src_W6 m ρ c)

theorem tgt_W7 : W7 (F := Ideal) m ρ c (Proc.devRef .tc main_v7) = edgeTarget (m ((c.tc : Thread nD τ).loc main_arg1)) :=
  (W7_of_ne m ρ c main_v7 (by decide)).trans (tgt_W6 m ρ c)

theorem col_W7 : W7 (F := Ideal) m ρ c (Proc.devRef .tc main_v33) = weightColumn (edgeSource (m ((c.tc : Thread nD τ).loc main_arg1))) (edgeTarget (m ((c.tc : Thread nD τ).loc main_arg1))) :=
  (W7_of_ne m ρ c main_v33 (by decide)).trans (col_W6 m ρ c)

theorem prod_W7 : W7 (F := Ideal) m ρ c (Proc.devRef .tc main_v49) = Cert.Dense.rowsTimes (HostValue.hidden1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) :=
  by
  refine (W7_arr m ρ c 2).trans ((RegionValue.product2 (V6 m ρ) c).trans ?_)
  rw [show V6 (F := Ideal) m ρ c main_v48 = _ from hid_W6 m ρ c, show V6 (F := Ideal) m ρ c main_arg4 = _ from arg4_W6 m ρ c]

theorem sum_W8 : W8 (F := Ideal) m ρ c (Proc.devRef .tc main_v61) = aggregate128 (Cert.Dense.rowsTimes (HostValue.hidden1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (edgeSource (m ((c.tc : Thread nD τ).loc main_arg1))) (edgeTarget (m ((c.tc : Thread nD τ).loc main_arg1))) (weightColumn (edgeSource (m ((c.tc : Thread nD τ).loc main_arg1))) (edgeTarget (m ((c.tc : Thread nD τ).loc main_arg1)))) :=
  by
  refine (ops3_sum _).trans ?_
  rw [prod_W7 m ρ c, src_W7 m ρ c, tgt_W7 m ρ c, col_W7 m ρ c]

theorem bias_W8 : W8 (F := Ideal) m ρ c (Proc.devRef .tc main_v62) = biasRow128 (m ((c.tc : Thread nD τ).loc main_arg5)) :=
  by
  refine (ops3_bias _).trans ?_
  rw [arg5_W7 m ρ c]

theorem src_W8 : W8 (F := Ideal) m ρ c (Proc.devRef .tc main_v3) = edgeSource (m ((c.tc : Thread nD τ).loc main_arg1)) :=
  (keep3_v3 _).trans (src_W7 m ρ c)

theorem tgt_W8 : W8 (F := Ideal) m ρ c (Proc.devRef .tc main_v7) = edgeTarget (m ((c.tc : Thread nD τ).loc main_arg1)) :=
  (keep3_v7 _).trans (tgt_W7 m ρ c)

theorem col_W8 : W8 (F := Ideal) m ρ c (Proc.devRef .tc main_v33) = weightColumn (edgeSource (m ((c.tc : Thread nD τ).loc main_arg1))) (edgeTarget (m ((c.tc : Thread nD τ).loc main_arg1))) :=
  (keep3_v33 _).trans (col_W7 m ρ c)

theorem src_W9 : W9 (F := Ideal) m ρ c (Proc.devRef .tc main_v3) = edgeSource (m ((c.tc : Thread nD τ).loc main_arg1)) :=
  (W9_of_ne m ρ c main_v3 (by decide)).trans (src_W8 m ρ c)

theorem tgt_W9 : W9 (F := Ideal) m ρ c (Proc.devRef .tc main_v7) = edgeTarget (m ((c.tc : Thread nD τ).loc main_arg1)) :=
  (W9_of_ne m ρ c main_v7 (by decide)).trans (tgt_W8 m ρ c)

theorem col_W9 : W9 (F := Ideal) m ρ c (Proc.devRef .tc main_v33) = weightColumn (edgeSource (m ((c.tc : Thread nD τ).loc main_arg1))) (edgeTarget (m ((c.tc : Thread nD τ).loc main_arg1))) :=
  (W9_of_ne m ρ c main_v33 (by decide)).trans (col_W8 m ρ c)

theorem hid_W9 : W9 (F := Ideal) m ρ c (Proc.devRef .tc main_v63) = HostValue.hidden2 (HostValue.hidden1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5)) :=
  by
  refine (W9_arr m ρ c 2).trans ((RegionValue.hidden3 (V8 m ρ) c).trans ?_)
  rw [show V8 (F := Ideal) m ρ c main_v61 = _ from sum_W8 m ρ c, show V8 (F := Ideal) m ρ c main_v62 = _ from bias_W8 m ρ c]
  rfl

theorem src_W10 : W10 (F := Ideal) m ρ c (Proc.devRef .tc main_v3) = edgeSource (m ((c.tc : Thread nD τ).loc main_arg1)) :=
  (W10_of_ne m ρ c main_v3 (by decide)).trans (src_W9 m ρ c)

theorem tgt_W10 : W10 (F := Ideal) m ρ c (Proc.devRef .tc main_v7) = edgeTarget (m ((c.tc : Thread nD τ).loc main_arg1)) :=
  (W10_of_ne m ρ c main_v7 (by decide)).trans (tgt_W9 m ρ c)

theorem col_W10 : W10 (F := Ideal) m ρ c (Proc.devRef .tc main_v33) = weightColumn (edgeSource (m ((c.tc : Thread nD τ).loc main_arg1))) (edgeTarget (m ((c.tc : Thread nD τ).loc main_arg1))) :=
  (W10_of_ne m ρ c main_v33 (by decide)).trans (col_W9 m ρ c)

theorem prod_W10 : W10 (F := Ideal) m ρ c (Proc.devRef .tc main_v64) = Cert.Dense.rowsTimes (HostValue.hidden2 (HostValue.hidden1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5))) (m ((c.tc : Thread nD τ).loc main_arg6)) :=
  by
  refine (W10_arr m ρ c 2).trans ((RegionValue.product4 (V9 m ρ) c).trans ?_)
  rw [show V9 (F := Ideal) m ρ c main_v63 = _ from hid_W9 m ρ c, show V9 (F := Ideal) m ρ c main_arg6 = _ from arg6_W9 m ρ c]

theorem sum_W11 : W11 (F := Ideal) m ρ c (Proc.devRef .tc main_v76) = aggregate64 (Cert.Dense.rowsTimes (HostValue.hidden2 (HostValue.hidden1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5))) (m ((c.tc : Thread nD τ).loc main_arg6))) (edgeSource (m ((c.tc : Thread nD τ).loc main_arg1))) (edgeTarget (m ((c.tc : Thread nD τ).loc main_arg1))) (weightColumn (edgeSource (m ((c.tc : Thread nD τ).loc main_arg1))) (edgeTarget (m ((c.tc : Thread nD τ).loc main_arg1)))) :=
  by
  refine (ops5_sum _).trans ?_
  rw [prod_W10 m ρ c, src_W10 m ρ c, tgt_W10 m ρ c, col_W10 m ρ c]

theorem bias_W11 : W11 (F := Ideal) m ρ c (Proc.devRef .tc main_v77) = biasRow64 (m ((c.tc : Thread nD τ).loc main_arg7)) :=
  by
  refine (ops5_bias _).trans ?_
  rw [arg7_W10 m ρ c]

theorem out_W12 : W12 (F := Ideal) m ρ c (Proc.devRef .tc main_v78) = HostValue.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  by
  refine (W12_arr m ρ c 2).trans ((RegionValue.logits5 (V11 m ρ) c).trans ?_)
  rw [show V11 (F := Ideal) m ρ c main_v76 = _ from sum_W11 m ρ c, show V11 (F := Ideal) m ρ c main_v77 = _ from bias_W11 m ρ c]
  rfl

/-- Every weakly fair execution of the kernel program terminates with its result at `network` of the arguments as
    launched, and the arguments unchanged. -/
theorem run_network : θ_run defs (onTc (τ := τ) (main (F := Ideal))) ⟨m, fun _ => 0, ρ⟩ (fun r => ∀ c : Dev nD,
      r.2.mem ((c.tc : Thread nD τ).loc main_v78) = HostValue.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (out_W12 m ρ c), (h c).2⟩) (run_result m ρ)

end Cert.KernelIdeal.RunValue

end
-- ==== Proof.ReferenceGraph.lean ====
/-
  The graph side of the network, as functions of the edge list.

  The edge list `x1` is a [2, 800000] array of node numbers: row 0 the sources, row 1 the targets. Every node also
  gets a loop to itself, so the 850000 message edges are the listed ones followed by (n, n) for the 50000 nodes n
  (`edgeSource`, `edgeTarget`). A node's degree is the number of message edges that end at it (a sum of ones
  scattered to the targets); its weight is `1/√(max degree 1)` where the degree is positive and 0 elsewhere; a message
  edge weighs the product of its two ends' weights (`edgeWeight`, kept as one column). One round of message passing
  over node features `h` (`aggregate128`, `aggregate64`) gathers the source's row for every message edge (a negative
  row number counted from the end), scales it by the edge's weight and adds it into the target's row of a zero array.
-/
import proofs.«128856_j5995774345733_1_alg».proof.Proof.Gen.ReferenceIdeal
import Idealize.ShloMosaic.PureOps.Ideal

noncomputable section

namespace Cert.ReferenceIdeal.HostValue

open Cert.ReferenceIdeal Cert.ReferenceIdeal.Facts₀ Cert.ReferenceIdeal.Facts Idealize.ShloMosaic

variable {F : FTy → Type} [FloatOps F]

/-- The message edges' sources: the listed sources, then every node once. -/
def edgeSource (x1 : (⟨S2x800000, .i32⟩ : BufTy).Contents (Elt F)) : (⟨S850000, .i32⟩ : BufTy).Contents (Elt F) :=
  concatenate S850000 0 [⟨S800000, shapeCast _ (extractStridedSlice S1x800000 ![0, 0] x1 slices_S2x800000_S1x800000_0_0) shapeCasts_S1x800000_S800000⟩, ⟨S50000, iotaInDim S50000 32 0⟩] concatenates_S800000_S50000_S850000_d0

/-- The message edges' targets: the listed targets, then every node once. -/
def edgeTarget (x1 : (⟨S2x800000, .i32⟩ : BufTy).Contents (Elt F)) : (⟨S850000, .i32⟩ : BufTy).Contents (Elt F) :=
  concatenate S850000 0 [⟨S800000, shapeCast _ (extractStridedSlice S1x800000 ![1, 0] x1 slices_S2x800000_S1x800000_1_0) shapeCasts_S1x800000_S800000⟩, ⟨S50000, iotaInDim S50000 32 0⟩] concatenates_S800000_S50000_S850000_d0

/-- Row numbers as a gather takes them: a negative one counted from the end (50000 added), kept as a column. -/
def rowColumn (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- A node's degree: ones added at every message edge's target. -/
def degree (d : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32))
    (broadcastInDim S850000x1 ![0] bcast_S850000_S850000x1_0 d) (broadcastInDim S850000 ![] bcast_S_S850000 (constant S_ .f32 0x3F800000#32))

/-- A node's weight: `1/√(max degree 1)` where the degree is positive, 0 elsewhere. -/
def nodeWeight (d : (⟨S850000, .i32⟩ : BufTy).Contents (Elt F)) : (⟨S50000, .f32⟩ : BufTy).Contents (Elt F) :=
  select (cmpf .ogt (degree d) (broadcastInDim S50000 ![] bcast_S_S50000 (constant S_ .f32 0x00000000#32)))
    (Host.rsqrt (maximumf (degree d) (broadcastInDim S50000 ![] bcast_S_S50000 (constant S_ .f32 0x3F800000#32))))
    (broadcastInDim S50000 ![] bcast_S_S50000 (id (constant S_ .f32 0x00000000#32)))

/-- A message edge's weight: the product of its source's and its target's weights. -/
def edgeWeight (s d : (⟨S850000, .i32⟩ : BufTy).Contents (Elt F)) : (⟨S850000, .f32⟩ : BufTy).Contents (Elt F) :=
  mulf (Host.gather gather_S50000_S850000x1_S850000_n_0_n_n_0_1_1 (nodeWeight d) (rowColumn s))
    (Host.gather gather_S50000_S850000x1_S850000_n_0_n_n_0_1_1 (nodeWeight d) (rowColumn d))

/-- The edge weights kept as one column. -/
def weightColumn (s d : (⟨S850000, .i32⟩ : BufTy).Contents (Elt F)) : (⟨S850000x1, .f32⟩ : BufTy).Contents (Elt F) :=
  broadcastInDim S850000x1 ![0] bcast_S850000_S850000x1_0 (edgeWeight s d)

/-- One round of message passing over 128 features, the edge weights given as a column `w`. -/
def aggregate128 (h : (⟨S50000x128, .f32⟩ : BufTy).Contents (Elt F)) (s d : (⟨S850000, .i32⟩ : BufTy).Contents (Elt F))
    (w : (⟨S850000x1, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32))
    (broadcastInDim S850000x1 ![0] bcast_S850000_S850000x1_0 d)
    (mulf (Host.gather gather_S50000x128_S850000x1_S850000x128_1_0_n_n_0_1_1128 h (rowColumn s))
      (broadcastInDim S850000x128 ![0, 1] bcast_S850000x1_S850000x128_0_1 w))

/-- One round of message passing over 64 features. -/
def aggregate64 (h : (⟨S50000x64, .f32⟩ : BufTy).Contents (Elt F)) (s d : (⟨S850000, .i32⟩ : BufTy).Contents (Elt F))
    (w : (⟨S850000x1, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32))
    (broadcastInDim S850000x1 ![0] bcast_S850000_S850000x1_0 d)
    (mulf (Host.gather gather_S50000x64_S850000x1_S850000x64_1_0_n_n_0_1_164 h (rowColumn s))
      (broadcastInDim S850000x64 ![0, 1] bcast_S850000x1_S850000x64_0_1 w))

end Cert.ReferenceIdeal.HostValue

end
-- ==== Proof.LibHostRowReduce.lean ====
/-
  The host's reductions along the columns of a matrix, and the host's row-wise log-softmax, read at an entry — general
  in the extents m and n, in the two initial words, and with every shape fact taken as a hypothesis, so that nothing
  is ever evaluated at the extents.

  A `stablehlo.reduce` over axis 1 of an [m, n] array folds, for each row, over the row's n entries:
    * `lift_row`: the reduced index `p` with column `k` put back is (p, k);
    * `reduce_max_row`: from the f32 word `w`, the reduce with a maximum body at row `p` is the fold of `max` from that
      word's value over the row (the word is carried, never evaluated);
    * `reduce_add_row`: the sum-reduction from an initial value at row `p` is that value plus the row's sum.
  A scalar constant repeated into an array reads the constant (`splat_apply`); a vector kept as a one-column array,
  and a one-column array repeated along the rows, read the vector at the row (`column_keep`, `column_repeat`).

  The host's log-softmax of an [m, n] array `z` (jax.nn.log_softmax along axis 1): each row's maximum reduced from the
  word `w` and taken once more against `w`'s value (which changes nothing: a maximum taken from a value is already at
  least that value), kept as a column and repeated along the rows; the shifted entries' exponentials summed from the
  word `w0`, whose value is 0; the sum's logarithm, kept and repeated likewise, subtracted from the shifted entries.
  At (p, q) it is `z(p,q) − M − log Σ_k exp (z(p,k) − M)` with `M` the fold of `max` from `w`'s value over row p
  (`logSoftmax_apply`). No entry needs to be finite.
-/
import Idealize.ShloMosaic.PureOps.Ideal.Laws
import Idealize.ShloMosaic.PureOps.Reduce
import Idealize.ShloMosaic.Lib.Pipeline.Value
import Idealize.ShloMosaic.Lib.ValueIdx

noncomputable section

namespace Cert.HostRows

open Idealize.ShloMosaic Idealize.ShloMosaic.ValueIdx

variable {m n : Nat}

/-! ## Reductions along the columns -/

/-- The reduced index `p` with column `k` put back is (p, k). -/
theorem lift_row (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- From the word `w` the host's reduce with a maximum body along the columns, at row `p`, is the fold of `max` from
    `w`'s value over the row. -/
theorem reduce_max_row (x : FVec Ideal (⟨2, ![m, n]⟩ : Shape) .f32) (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (w : BitVec 32) (p : Fin m) :
    Host.reduce FloatOps.maximumf x (constant (⟨0, ![]⟩ : Shape) .f32 w) h' hu (ix1 p)
      = (Finset.univ : Finset (Fin n)).fold max (Ideal.ofBits .f32 w) fun k : Fin n => x (ix2 p k) := by
  rw [Host.reduce_eq_fold_single FloatOps.maximumf x _ h' h hu]
  have hf : (x ∘ h.lift (ix1 p)) = fun k : Fin n => x (ix2 p k) := funext fun k => congrArg x (lift_row h p k)
  exact congrArg (fun f => Finset.fold max (Ideal.ofBits .f32 w) f (Finset.univ : Finset (Fin n))) hf

/-- The host's sum-reduction along the columns from an initial value, at row `p`, is that value plus the row's sum. -/
theorem reduce_add_row (x : (⟨2, ![m, n]⟩ : Shape).Idx → EReal) (h' : (⟨2, ![m, n]⟩ : Shape).ReducesTo [1] (⟨1, ![m]⟩ : Shape))
    (h : (⟨2, ![m, n]⟩ : Shape).Reduces [1] (⟨1, ![m]⟩ : Shape)) (init : EReal) (p : Fin m) :
    Ideal.hostReduceAdd h' x init (ix1 p) = init + ∑ k : Fin n, x (ix2 p k) := by
  rw [Ideal.hostReduceAdd_single h' h]
  exact congrArg (init + ·) (Finset.sum_congr rfl fun k _ => congrArg x (lift_row h p k))

/-! ## Constants and columns laid out by the host -/

/-- A scalar constant repeated into an array reads the constant's value. -/
theorem splat_apply {t : Shape} (dims : Fin (⟨0, ![]⟩ : Shape).rank → Fin t.rank) (h : (⟨0, ![]⟩ : Shape).BroadcastsInDim t dims)
    (w : BitVec 32) (i : t.Idx) :
    broadcastInDim t dims h (constant (F := Ideal) (⟨0, ![]⟩ : Shape) .f32 w) i = Ideal.ofBits .f32 w := rfl

/-- A one-column array repeated along the rows reads its column at the row. -/
theorem column_repeat {α : Type} {b : Nat} (v : (⟨2, ![m, 1]⟩ : Shape).Idx → α)
    (h : (⟨2, ![m, 1]⟩ : Shape).BroadcastsInDim (⟨2, ![m, b]⟩ : Shape) ![0, 1]) (p : Fin m) (k : Fin b) :
    broadcastInDim (⟨2, ![m, b]⟩ : Shape) ![0, 1] h v (ix2 p k) = v (ix2 p (0 : Fin 1)) := by
  refine broadcastInDim_apply _ h v (ix2 p k) (ix2 p (0 : Fin 1)) fun a => ?_
  match a with
  | ⟨0, _⟩ =>
    show p.val = if m = 1 then 0 else p.val
    split
    · have := p.isLt; omega
    · rfl
  | ⟨1, _⟩ => rfl

/-- A vector kept as a one-column array reads the vector at the row. -/
theorem column_keep {α : Type} (x : (⟨1, ![m]⟩ : Shape).Idx → α)
    (h : (⟨1, ![m]⟩ : Shape).BroadcastsInDim (⟨2, ![m, 1]⟩ : Shape) ![0]) (p : Fin m) :
    broadcastInDim (⟨2, ![m, 1]⟩ : Shape) ![0] h x (ix2 p (0 : Fin 1)) = x (ix1 p) := by
  refine broadcastInDim_apply _ h x (ix2 p (0 : Fin 1)) (ix1 p) fun a => ?_
  match a with
  | ⟨0, _⟩ =>
    show p.val = if m = 1 then 0 else p.val
    split
    · have := p.isLt; omega
    · rfl

/-! ## The host's row-wise log-softmax -/

section LogSoftmax

variable (h' : (⟨2, ![m, n]⟩ : Shape).ReducesTo [1] (⟨1, ![m]⟩ : Shape)) (h : (⟨2, ![m, n]⟩ : Shape).Reduces [1] (⟨1, ![m]⟩ : Shape)) (hu : 0 < (⟨0, ![]⟩ : Shape).numel)
  (b0 : (⟨0, ![]⟩ : Shape).BroadcastsInDim (⟨1, ![m]⟩ : Shape) ![]) (b1 : (⟨1, ![m]⟩ : Shape).BroadcastsInDim (⟨2, ![m, 1]⟩ : Shape) ![0])
  (b2 : (⟨2, ![m, 1]⟩ : Shape).BroadcastsInDim (⟨2, ![m, n]⟩ : Shape) ![0, 1]) (w w0 : BitVec 32)

/-- Each row's maximum, reduced from `w` and taken once more against `w`'s value. -/
def rowMaxima (z : FVec Ideal (⟨2, ![m, n]⟩ : Shape) .f32) : FVec Ideal (⟨1, ![m]⟩ : Shape) .f32 :=
  maximumf (broadcastInDim (⟨1, ![m]⟩ : Shape) ![] b0 (constant (F := Ideal) (⟨0, ![]⟩ : Shape) .f32 w))
    (Host.reduce FloatOps.maximumf z (constant (F := Ideal) (⟨0, ![]⟩ : Shape) .f32 w) h' hu)

/-- Each entry's distance to its row's maximum. -/
def shifted (z : FVec Ideal (⟨2, ![m, n]⟩ : Shape) .f32) : FVec Ideal (⟨2, ![m, n]⟩ : Shape) .f32 :=
  subf z (broadcastInDim (⟨2, ![m, n]⟩ : Shape) ![0, 1] b2 (broadcastInDim (⟨2, ![m, 1]⟩ : Shape) ![0] b1 (rowMaxima h' hu b0 w z)))

/-- The shifted entries minus the logarithm of the row's sum of shifted exponentials. -/
def logSoftmax (z : FVec Ideal (⟨2, ![m, n]⟩ : Shape) .f32) : FVec Ideal (⟨2, ![m, n]⟩ : Shape) .f32 :=
  subf (shifted h' hu b0 b1 b2 w z) (broadcastInDim (⟨2, ![m, n]⟩ : Shape) ![0, 1] b2 (Host.log (broadcastInDim (⟨2, ![m, 1]⟩ : Shape) ![0] b1
    (Host.reduceAdd (Host.exp (shifted h' hu b0 b1 b2 w z)) (constant (F := Ideal) (⟨0, ![]⟩ : Shape) .f32 w0) h' hu))))

include h in
theorem rowMaxima_apply (z : FVec Ideal (⟨2, ![m, n]⟩ : Shape) .f32) (p : Fin m) :
    rowMaxima h' hu b0 w z (ix1 p) = (Finset.univ : Finset (Fin n)).fold max (Ideal.ofBits .f32 w) fun k : Fin n => z (ix2 p k) := by
  unfold rowMaxima
  show FloatOps.maximumf (broadcastInDim (⟨1, ![m]⟩ : Shape) ![] b0 (constant (F := Ideal) (⟨0, ![]⟩ : Shape) .f32 w) (ix1 p))
    (Host.reduce FloatOps.maximumf z (constant (F := Ideal) (⟨0, ![]⟩ : Shape) .f32 w) h' hu (ix1 p)) = _
  rw [splat_apply, reduce_max_row z h' h hu w p]
  exact max_eq_right (by rw [Finset.le_fold_max]; exact Or.inl le_rfl)

include h in
theorem shifted_apply (z : FVec Ideal (⟨2, ![m, n]⟩ : Shape) .f32) (p : Fin m) (q : Fin n) :
    shifted h' hu b0 b1 b2 w z (ix2 p q)
      = z (ix2 p q) - (Finset.univ : Finset (Fin n)).fold max (Ideal.ofBits .f32 w) fun k : Fin n => z (ix2 p k) := by
  unfold shifted
  show FloatOps.subf (z (ix2 p q)) (broadcastInDim (⟨2, ![m, n]⟩ : Shape) ![0, 1] b2 (broadcastInDim (⟨2, ![m, 1]⟩ : Shape) ![0] b1 (rowMaxima h' hu b0 w z)) (ix2 p q)) = _
  rw [column_repeat, column_keep, rowMaxima_apply h' h hu b0 w z p]
  rfl

include h in
/-- The host's log-softmax at (p, q), given that the sum's initial word `w0` is worth 0. -/
theorem logSoftmax_apply (hw0 : Ideal.ofBits .f32 w0 = 0) (z : FVec Ideal (⟨2, ![m, n]⟩ : Shape) .f32) (p : Fin m) (q : Fin n) :
    logSoftmax h' hu b0 b1 b2 w w0 z (ix2 p q)
      = (z (ix2 p q) - (Finset.univ : Finset (Fin n)).fold max (Ideal.ofBits .f32 w) fun k : Fin n => z (ix2 p k))
        - Ideal.log (∑ k' : Fin n, Ideal.exp (z (ix2 p k')
            - (Finset.univ : Finset (Fin n)).fold max (Ideal.ofBits .f32 w) fun k : Fin n => z (ix2 p k))) := by
  unfold logSoftmax
  show FloatOps.subf (shifted h' hu b0 b1 b2 w z (ix2 p q)) (broadcastInDim (⟨2, ![m, n]⟩ : Shape) ![0, 1] b2 (Host.log (broadcastInDim (⟨2, ![m, 1]⟩ : Shape) ![0] b1
      (Host.reduceAdd (Host.exp (shifted h' hu b0 b1 b2 w z)) (constant (F := Ideal) (⟨0, ![]⟩ : Shape) .f32 w0) h' hu))) (ix2 p q)) = _
  rw [shifted_apply h' h hu b0 b1 b2 w z p q, column_repeat]
  show FloatOps.subf (F := Ideal) (φ := .f32) _ (Ideal.log (broadcastInDim (⟨2, ![m, 1]⟩ : Shape) ![0] b1
      (Ideal.hostReduceAdd h' (Host.exp (shifted h' hu b0 b1 b2 w z)) (Ideal.ofBits .f32 w0)) (ix2 p (0 : Fin 1)))) = _
  rw [column_keep, reduce_add_row _ h' h, hw0, zero_add]
  refine congrArg (fun s => (z (ix2 p q) - (Finset.univ : Finset (Fin n)).fold max (Ideal.ofBits .f32 w) fun k : Fin n => z (ix2 p k)) - Ideal.log s)
    (Finset.sum_congr rfl fun k' _ => ?_)
  show Ideal.exp (shifted h' hu b0 b1 b2 w z (ix2 p k')) = _
  rw [shifted_apply h' h hu b0 b1 b2 w z p k']

end LogSoftmax

end Cert.HostRows

end
-- ==== Proof.ReferenceStages.lean ====
/-
  The reference network as ONE function of its eight arguments.

  Three layers. A layer multiplies the node features by its weight matrix, passes the products along the message
  edges (`aggregate128`, `aggregate64` of the graph side) and adds the layer's bias to every row; the first two
  layers then take the maximum with zero, the last one the row-wise log-softmax: each row's maximum (from −∞, and
  once more against −∞) is subtracted, and the logarithm of the row's sum of exponentials of the differences is
  subtracted from the differences.
-/
import proofs.«128856_j5995774345733_1_alg».proof.Proof.ReferenceGraph
import proofs.«128856_j5995774345733_1_alg».proof.Proof.LibHostRowReduce

noncomputable section

namespace Cert.ReferenceIdeal.HostValue

open Cert.ReferenceIdeal Cert.ReferenceIdeal.Facts₀ Cert.ReferenceIdeal.Facts Idealize.ShloMosaic

/-- A bias of 128 entries laid along every one of the 50000 rows. -/
def biasRows128 (b : (⟨S128, .f32⟩ : BufTy).Contents (Elt Ideal)) : (⟨S50000x128, .f32⟩ : BufTy).Contents (Elt Ideal) :=
  broadcastInDim S50000x128 ![0, 1] bcast_S1x128_S50000x128_0_1 (broadcastInDim S1x128 ![1] bcast_S128_S1x128_1 b)

/-- A bias of 64 entries laid along every one of the 50000 rows. -/
def biasRows64 (b : (⟨S64, .f32⟩ : BufTy).Contents (Elt Ideal)) : (⟨S50000x64, .f32⟩ : BufTy).Contents (Elt Ideal) :=
  broadcastInDim S50000x64 ![0, 1] bcast_S1x64_S50000x64_0_1 (broadcastInDim S1x64 ![1] bcast_S64_S1x64_1 b)

/-- The maximum with zero, entry by entry. -/
def rectified (a : (⟨S50000x128, .f32⟩ : BufTy).Contents (Elt Ideal)) : (⟨S50000x128, .f32⟩ : BufTy).Contents (Elt Ideal) :=
  maximumf (F := Ideal) (φ := .f32) a (broadcastInDim S50000x128 ![] bcast_S_S50000x128 (constant (F := Ideal) S_ .f32 0x00000000#32))

/-- The row-wise log-softmax of a [50000, 64] array. -/
def logSoftmax64 (z : (⟨S50000x64, .f32⟩ : BufTy).Contents (Elt Ideal)) : (⟨S50000x64, .f32⟩ : BufTy).Contents (Elt Ideal) :=
  Cert.HostRows.logSoftmax (m := 50000) (n := 64) reducesTo_S50000x64_S50000_d1 h_S_ bcast_S_S50000 bcast_S50000_S50000x1_0 bcast_S50000x1_S50000x64_0_1
    0xFF800000#32 0x00000000#32 z

/-- The first hidden layer's output. -/
def hidden1 (x0 : (⟨S50000x512, .f32⟩ : BufTy).Contents (Elt Ideal)) (x1 : (⟨S2x800000, .i32⟩ : BufTy).Contents (Elt Ideal))
    (x2 : (⟨S512x128, .f32⟩ : BufTy).Contents (Elt Ideal)) (x3 : (⟨S128, .f32⟩ : BufTy).Contents (Elt Ideal)) :
    (⟨S50000x128, .f32⟩ : BufTy).Contents (Elt Ideal) :=
  rectified (addf (F := Ideal) (φ := .f32) (aggregate128 (Host.dotGeneral (φ₁ := .f32) (φ₂ := .f32) dot_S50000x512_S512x128_S50000x128_1_0_0_1_n_n none x0 x2)
    (edgeSource x1) (edgeTarget x1) (weightColumn (edgeSource x1) (edgeTarget x1))) (biasRows128 x3))

/-- The second hidden layer's output, from the first's. -/
def hidden2 (h : (⟨S50000x128, .f32⟩ : BufTy).Contents (Elt Ideal)) (x1 : (⟨S2x800000, .i32⟩ : BufTy).Contents (Elt Ideal))
    (x4 : (⟨S128x128, .f32⟩ : BufTy).Contents (Elt Ideal)) (x5 : (⟨S128, .f32⟩ : BufTy).Contents (Elt Ideal)) :
    (⟨S50000x128, .f32⟩ : BufTy).Contents (Elt Ideal) :=
  rectified (addf (F := Ideal) (φ := .f32) (aggregate128 (Host.dotGeneral (φ₁ := .f32) (φ₂ := .f32) dot_S50000x128_S128x128_S50000x128_1_0_0_1_n_n none h x4)
    (edgeSource x1) (edgeTarget x1) (weightColumn (edgeSource x1) (edgeTarget x1))) (biasRows128 x5))

/-- The output layer, from the second hidden layer's output. -/
def logits (h : (⟨S50000x128, .f32⟩ : BufTy).Contents (Elt Ideal)) (x1 : (⟨S2x800000, .i32⟩ : BufTy).Contents (Elt Ideal))
    (x6 : (⟨S128x64, .f32⟩ : BufTy).Contents (Elt Ideal)) (x7 : (⟨S64, .f32⟩ : BufTy).Contents (Elt Ideal)) :
    (⟨S50000x64, .f32⟩ : BufTy).Contents (Elt Ideal) :=
  logSoftmax64 (addf (F := Ideal) (φ := .f32) (aggregate64 (Host.dotGeneral (φ₁ := .f32) (φ₂ := .f32) dot_S50000x128_S128x64_S50000x64_1_0_0_1_n_n none h x6)
    (edgeSource x1) (edgeTarget x1) (weightColumn (edgeSource x1) (edgeTarget x1))) (biasRows64 x7))

/-- The whole network. -/
def network (x0 : (⟨S50000x512, .f32⟩ : BufTy).Contents (Elt Ideal)) (x1 : (⟨S2x800000, .i32⟩ : BufTy).Contents (Elt Ideal))
    (x2 : (⟨S512x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x64, .f32⟩ : BufTy).Contents (Elt Ideal)) (x7 : (⟨S64, .f32⟩ : BufTy).Contents (Elt Ideal)) :
    (⟨S50000x64, .f32⟩ : BufTy).Contents (Elt Ideal) :=
  logits (hidden2 (hidden1 x0 x1 x2 x3) x1 x4 x5) x1 x6 x7

end Cert.ReferenceIdeal.HostValue

end
-- ==== Proof.LibHostStretches.lean ====
/-
  A straight line of host operations read in stretches, and a value carried through an outlined call.

  * `after_append`, `after_split`: what a line of host operations leaves (the fold `StableHlo.after` of the operations
    over the contents it starts from) is what its last part leaves from what its first part leaves. So a long line is
    read a stretch at a time, each stretch over an ARBITRARY starting valuation: the terms stay small, and values
    several later operations consume are named once (at the stretch's start) instead of being copied into every use.
  * `ofBuf_toBuf`: the operations of an outlined function (`func.call`) read and write their operands through typed
    references, a transport along the buffer's type equation each way. A value written that way and read back at
    its own type is the value. Rewriting with it first leaves a line with outlined calls comparable, by reading,
    with the same operations written without the calls.

  General in the topology, the reference signature and the element values.
-/
import Idealize.ShloMosaic.Lib.StableHlo.Run

namespace Cert.HostLine

open Idealize.ShloMosaic Idealize.ShloMosaic.StableHlo

variable {τ : Topo} {sig : RefSig} {Val : EltTy → Type}

/-- Two stretches run one after the other are their concatenation run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line of operations run as its first `n` and then the rest. -/
theorem after_split (n : Nat) (l : List (HloOp τ sig Val)) (V : Valuation τ sig Val) :
    after l V = after (l.drop n) (after (l.take n) V) := by
  rw [← after_append, List.take_append_drop]

/-- A value written to a typed reference's buffer and read back at the value's type is the value. -/
theorem ofBuf_toBuf {T : BufTy} (x : TRef sig T) (v : T.Contents Val) : x.ofBuf (x.toBuf v) = v := by
  obtain ⟨r, te, od, us⟩ := x
  subst te
  rfl

end Cert.HostLine
-- ==== Proof.ReferenceRead.lean ====
/-
  The reference program's result as ONE function of its eight arguments.

  @main is a straight line of 125 host operations. What such a line leaves in a buffer is the fold of the
  operations' results over the contents it starts from, and a line run as two stretches one after the other is the
  second stretch run from what the first leaves. The line is cut into seven stretches — the message edges' sources
  and targets; the nodes' weights; the edges' weights; the three layers (the last one up to its bias); the row-wise
  log-softmax — and each stretch is read from ARBITRARY starting contents `V`: its result is the stage's function of
  the few buffers the stretch reads, and every buffer the stretch does not write keeps its contents. Chained, the
  seven readings give the result buffer as the network of the arguments; with the launch theorem, the run.
-/
import proofs.«128856_j5995774345733_1_alg».proof.Proof.ReferenceRun
import proofs.«128856_j5995774345733_1_alg».proof.Proof.ReferenceStages
import proofs.«128856_j5995774345733_1_alg».proof.Proof.LibHostStretches

set_option maxRecDepth 16384

noncomputable section

namespace Cert.ReferenceIdeal.HostRead

open Cert.ReferenceIdeal Cert.ReferenceIdeal.Gen Cert.ReferenceIdeal.HostValue Idealize.ShloMosaic Idealize.ShloMosaic.TcCoe Idealize.SL.Sem Idealize.ShloMosaic.StableHlo

variable {F : FTy → Type} [FloatOps F]

/-! ## The seven stretches, and the buffers each writes -/

/-- Operations 0–7: the message edges' sources and targets, from the edge list. -/
def edgeOps : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    nullary main_v2 (iotaInDim S50000 32 0),
    binary main_v1 main_v2 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    nullary main_v6 (iotaInDim S50000 32 0),
    binary main_v5 main_v6 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The buffers those operations write. -/
def edgeWritten : List (Ref sig .tc) := [main_v0, main_v1, main_v2, main_v3, main_v4, main_v5, main_v6, main_v7]

theorem edgeOps_writes : (edgeOps (F := F)).Forall fun op => op.writes ⊆ (edgeWritten.map (Proc.devRef (τ := τ) .tc)).toFinset := by
  simp only [edgeOps, List.Forall, nullary_writes, unary_writes, binary_writes, ternary_writes, reshape_writes, Finset.singleton_subset_iff, List.mem_toFinset]
  repeat' apply And.intro
  all_goals exact List.mem_map_of_mem (by decide)

/-- A buffer they do not write keeps its contents. -/
theorem edge_kept (V : Valuation τ sig (Elt F)) {r : Ref sig .tc} (hr : r ∉ edgeWritten) :
    after edgeOps V (Proc.devRef .tc r) = V (Proc.devRef .tc r) := after_of_writes_sub edgeOps V edgeOps_writes hr

/-- Operations 8–24: every node's weight, from the message edges' targets. -/
def nodeWeightOps : List (HloOp τ sig (Elt F)) :=
  [ nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v14 (broadcastInDim S50000 ![] bcast_S_S50000 : (⟨S_, .f32⟩ : BufTy).Contents (Elt F) → (⟨S50000, .f32⟩ : BufTy).Contents (Elt F)),
    binary main_v11 main_v14 main_v15 (maximumf : (⟨S50000, .f32⟩ : BufTy).Contents (Elt F) → (⟨S50000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_cst_3 (constant S_ .f32 0x00000000#32),
    unary main_cst_3 main_call0_v0 (id : (⟨S_, .f32⟩ : BufTy).Contents (Elt F) → (⟨S_, .f32⟩ : BufTy).Contents (Elt F)),
    unary main_call0_v0 main_call0_v1 (broadcastInDim S50000 ![] bcast_S_S50000 : (⟨S_, .f32⟩ : BufTy).Contents (Elt F) → (⟨S50000, .f32⟩ : BufTy).Contents (Elt F)),
    ternary main_v13 main_v16 main_call0_v1 main_v17 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ]

/-- The buffers those operations write. -/
def nodeWeightWritten : List (Ref sig .tc) := [main_cst, main_v8, main_cst_0, main_v9, main_v10, main_v11, main_cst_1, main_v12, main_v13, main_cst_2, main_v14, main_v15, main_v16, main_cst_3, main_call0_v0, main_call0_v1, main_v17]

theorem nodeWeightOps_writes : (nodeWeightOps (F := F)).Forall fun op => op.writes ⊆ (nodeWeightWritten.map (Proc.devRef (τ := τ) .tc)).toFinset := by
  simp only [nodeWeightOps, List.Forall, nullary_writes, unary_writes, binary_writes, ternary_writes, reshape_writes, Finset.singleton_subset_iff, List.mem_toFinset]
  repeat' apply And.intro
  all_goals exact List.mem_map_of_mem (by decide)

/-- A buffer they do not write keeps its contents. -/
theorem nodeWeight_kept (V : Valuation τ sig (Elt F)) {r : Ref sig .tc} (hr : r ∉ nodeWeightWritten) :
    after nodeWeightOps V (Proc.devRef .tc r) = V (Proc.devRef .tc r) := after_of_writes_sub nodeWeightOps V nodeWeightOps_writes hr

/-- Operations 25–43: every message edge's weight, from the node weights and the edges' two ends. -/
def edgeWeightOps : List (HloOp τ sig (Elt F)) :=
  [ nullary main_c (constantI S_ 32 0#32),
    unary main_c main_v18 (broadcastInDim S850000 ![] bcast_S_S850000 : (⟨S_, .i32⟩ : BufTy).Contents (Elt F) → (⟨S850000, .i32⟩ : BufTy).Contents (Elt F)),
    binary main_v3 main_v18 main_v19 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v20 (broadcastInDim S850000 ![] bcast_S_S850000 : (⟨S_, .i32⟩ : BufTy).Contents (Elt F) → (⟨S850000, .i32⟩ : BufTy).Contents (Elt F)),
    binary main_v3 main_v20 main_v21 (addi : (⟨S850000, .i32⟩ : BufTy).Contents (Elt F) → (⟨S850000, .i32⟩ : BufTy).Contents (Elt F) → (⟨S850000, .i32⟩ : BufTy).Contents (Elt F)),
    ternary main_v19 main_v21 main_v3 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v22 main_v23 (broadcastInDim S850000x1 ![0] bcast_S850000_S850000x1_0 : (⟨S850000, .i32⟩ : BufTy).Contents (Elt F) → (⟨S850000x1, .i32⟩ : BufTy).Contents (Elt F)),
    binary main_v17 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v27 (broadcastInDim S850000 ![] bcast_S_S850000 : (⟨S_, .i32⟩ : BufTy).Contents (Elt F) → (⟨S850000, .i32⟩ : BufTy).Contents (Elt F)),
    binary main_v7 main_v27 main_v28 (addi : (⟨S850000, .i32⟩ : BufTy).Contents (Elt F) → (⟨S850000, .i32⟩ : BufTy).Contents (Elt F) → (⟨S850000, .i32⟩ : BufTy).Contents (Elt F)),
    ternary main_v26 main_v28 main_v7 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v29 main_v30 (broadcastInDim S850000x1 ![0] bcast_S850000_S850000x1_0 : (⟨S850000, .i32⟩ : BufTy).Contents (Elt F) → (⟨S850000x1, .i32⟩ : BufTy).Contents (Elt F)),
    binary main_v17 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v24 main_v31 main_v32 (mulf : (⟨S850000, .f32⟩ : BufTy).Contents (Elt F) → (⟨S850000, .f32⟩ : BufTy).Contents (Elt F) → (⟨S850000, .f32⟩ : BufTy).Contents (Elt F)) ]

/-- The buffers those operations write. -/
def edgeWeightWritten : List (Ref sig .tc) := [main_c, main_v18, main_v19, main_c_4, main_v20, main_v21, main_v22, main_v23, main_v24, main_c_5, main_v25, main_v26, main_c_6, main_v27, main_v28, main_v29, main_v30, main_v31, main_v32]

theorem edgeWeightOps_writes : (edgeWeightOps (F := F)).Forall fun op => op.writes ⊆ (edgeWeightWritten.map (Proc.devRef (τ := τ) .tc)).toFinset := by
  simp only [edgeWeightOps, List.Forall, nullary_writes, unary_writes, binary_writes, ternary_writes, reshape_writes, Finset.singleton_subset_iff, List.mem_toFinset]
  repeat' apply And.intro
  all_goals exact List.mem_map_of_mem (by decide)

/-- A buffer they do not write keeps its contents. -/
theorem edgeWeight_kept (V : Valuation τ sig (Elt F)) {r : Ref sig .tc} (hr : r ∉ edgeWeightWritten) :
    after edgeWeightOps V (Proc.devRef .tc r) = V (Proc.devRef .tc r) := after_of_writes_sub edgeWeightOps V edgeWeightOps_writes hr

/-- Operations 44–66: the first layer (product, message passing, bias, maximum with zero). -/
def layer1Ops : List (HloOp τ sig (Elt F)) :=
  [ binary main_arg0 main_arg2 main_v33 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    nullary main_c_7 (constantI S_ 32 0#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v36 (broadcastInDim S850000 ![] bcast_S_S850000 : (⟨S_, .i32⟩ : BufTy).Contents (Elt F) → (⟨S850000, .i32⟩ : BufTy).Contents (Elt F)),
    binary main_v3 main_v36 main_v37 (addi : (⟨S850000, .i32⟩ : BufTy).Contents (Elt F) → (⟨S850000, .i32⟩ : BufTy).Contents (Elt F) → (⟨S850000, .i32⟩ : BufTy).Contents (Elt F)),
    ternary main_v35 main_v37 main_v3 main_v38 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v38 main_v39 (broadcastInDim S850000x1 ![0] bcast_S850000_S850000x1_0 : (⟨S850000, .i32⟩ : BufTy).Contents (Elt F) → (⟨S850000x1, .i32⟩ : BufTy).Contents (Elt F)),
    binary main_v33 main_v39 main_v40 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v32 main_v41 (broadcastInDim S850000x1 ![0] bcast_S850000_S850000x1_0 : (⟨S850000, .f32⟩ : BufTy).Contents (Elt F) → (⟨S850000x1, .f32⟩ : BufTy).Contents (Elt F)),
    unary main_v41 main_v42 (broadcastInDim S850000x128 ![0, 1] bcast_S850000x1_S850000x128_0_1 : (⟨S850000x1, .f32⟩ : BufTy).Contents (Elt F) → (⟨S850000x128, .f32⟩ : BufTy).Contents (Elt F)),
    binary main_v40 main_v42 main_v43 (mulf : (⟨S850000x128, .f32⟩ : BufTy).Contents (Elt F) → (⟨S850000x128, .f32⟩ : BufTy).Contents (Elt F) → (⟨S850000x128, .f32⟩ : BufTy).Contents (Elt F)),
    nullary main_cst_9 (constant S_ .f32 0x00000000#32),
    unary main_cst_9 main_v44 (broadcastInDim S50000x128 ![] bcast_S_S50000x128 : (⟨S_, .f32⟩ : BufTy).Contents (Elt F) → (⟨S50000x128, .f32⟩ : BufTy).Contents (Elt F)),
    unary main_v7 main_v45 (broadcastInDim S850000x1 ![0] bcast_S850000_S850000x1_0 : (⟨S850000, .i32⟩ : BufTy).Contents (Elt F) → (⟨S850000x1, .i32⟩ : BufTy).Contents (Elt F)),
    ternary main_v44 main_v45 main_v43 main_v46 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v47 (broadcastInDim S1x128 ![1] bcast_S128_S1x128_1 : (⟨S128, .f32⟩ : BufTy).Contents (Elt F) → (⟨S1x128, .f32⟩ : BufTy).Contents (Elt F)),
    unary main_v47 main_v48 (broadcastInDim S50000x128 ![0, 1] bcast_S1x128_S50000x128_0_1 : (⟨S1x128, .f32⟩ : BufTy).Contents (Elt F) → (⟨S50000x128, .f32⟩ : BufTy).Contents (Elt F)),
    binary main_v46 main_v48 main_v49 (addf : (⟨S50000x128, .f32⟩ : BufTy).Contents (Elt F) → (⟨S50000x128, .f32⟩ : BufTy).Contents (Elt F) → (⟨S50000x128, .f32⟩ : BufTy).Contents (Elt F)),
    nullary main_call1_cst (constant S_ .f32 0x00000000#32),
    unary main_call1_cst main_call1_v0 (broadcastInDim S50000x128 ![] bcast_S_S50000x128 : (⟨S_, .f32⟩ : BufTy).Contents (Elt F) → (⟨S50000x128, .f32⟩ : BufTy).Contents (Elt F)),
    binary main_v49 main_call1_v0 main_v50 (maximumf : (⟨S50000x128, .f32⟩ : BufTy).Contents (Elt F) → (⟨S50000x128, .f32⟩ : BufTy).Contents (Elt F) → (⟨S50000x128, .f32⟩ : BufTy).Contents (Elt F)) ]

/-- The buffers those operations write. -/
def layer1Written : List (Ref sig .tc) := [main_v33, main_c_7, main_v34, main_v35, main_c_8, main_v36, main_v37, main_v38, main_v39, main_v40, main_v41, main_v42, main_v43, main_cst_9, main_v44, main_v45, main_v46, main_v47, main_v48, main_v49, main_call1_cst, main_call1_v0, main_v50]

theorem layer1Ops_writes : (layer1Ops (F := F)).Forall fun op => op.writes ⊆ (layer1Written.map (Proc.devRef (τ := τ) .tc)).toFinset := by
  simp only [layer1Ops, List.Forall, nullary_writes, unary_writes, binary_writes, ternary_writes, reshape_writes, Finset.singleton_subset_iff, List.mem_toFinset]
  repeat' apply And.intro
  all_goals exact List.mem_map_of_mem (by decide)

/-- A buffer they do not write keeps its contents. -/
theorem layer1_kept (V : Valuation τ sig (Elt F)) {r : Ref sig .tc} (hr : r ∉ layer1Written) :
    after layer1Ops V (Proc.devRef .tc r) = V (Proc.devRef .tc r) := after_of_writes_sub layer1Ops V layer1Ops_writes hr

/-- Operations 67–89: the second layer. -/
def layer2Ops : List (HloOp τ sig (Elt F)) :=
  [ binary main_v50 main_arg4 main_v51 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_10 (constantI S_ 32 0#32),
    unary main_c_10 main_v52 (broadcastInDim S850000 ![] bcast_S_S850000 : (⟨S_, .i32⟩ : BufTy).Contents (Elt F) → (⟨S850000, .i32⟩ : BufTy).Contents (Elt F)),
    binary main_v3 main_v52 main_v53 (cmpi .slt : (⟨S850000, .i32⟩ : BufTy).Contents (Elt F) → (⟨S850000, .i32⟩ : BufTy).Contents (Elt F) → (⟨S850000, .i1⟩ : BufTy).Contents (Elt F)),
    nullary main_c_11 (constantI S_ 32 50000#32),
    unary main_c_11 main_v54 (broadcastInDim S850000 ![] bcast_S_S850000 : (⟨S_, .i32⟩ : BufTy).Contents (Elt F) → (⟨S850000, .i32⟩ : BufTy).Contents (Elt F)),
    binary main_v3 main_v54 main_v55 (addi : (⟨S850000, .i32⟩ : BufTy).Contents (Elt F) → (⟨S850000, .i32⟩ : BufTy).Contents (Elt F) → (⟨S850000, .i32⟩ : BufTy).Contents (Elt F)),
    ternary main_v53 main_v55 main_v3 main_v56 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v56 main_v57 (broadcastInDim S850000x1 ![0] bcast_S850000_S850000x1_0 : (⟨S850000, .i32⟩ : BufTy).Contents (Elt F) → (⟨S850000x1, .i32⟩ : BufTy).Contents (Elt F)),
    binary main_v51 main_v57 main_v58 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v32 main_v59 (broadcastInDim S850000x1 ![0] bcast_S850000_S850000x1_0 : (⟨S850000, .f32⟩ : BufTy).Contents (Elt F) → (⟨S850000x1, .f32⟩ : BufTy).Contents (Elt F)),
    unary main_v59 main_v60 (broadcastInDim S850000x128 ![0, 1] bcast_S850000x1_S850000x128_0_1 : (⟨S850000x1, .f32⟩ : BufTy).Contents (Elt F) → (⟨S850000x128, .f32⟩ : BufTy).Contents (Elt F)),
    binary main_v58 main_v60 main_v61 (mulf : (⟨S850000x128, .f32⟩ : BufTy).Contents (Elt F) → (⟨S850000x128, .f32⟩ : BufTy).Contents (Elt F) → (⟨S850000x128, .f32⟩ : BufTy).Contents (Elt F)),
    nullary main_cst_12 (constant S_ .f32 0x00000000#32),
    unary main_cst_12 main_v62 (broadcastInDim S50000x128 ![] bcast_S_S50000x128 : (⟨S_, .f32⟩ : BufTy).Contents (Elt F) → (⟨S50000x128, .f32⟩ : BufTy).Contents (Elt F)),
    unary main_v7 main_v63 (broadcastInDim S850000x1 ![0] bcast_S850000_S850000x1_0 : (⟨S850000, .i32⟩ : BufTy).Contents (Elt F) → (⟨S850000x1, .i32⟩ : BufTy).Contents (Elt F)),
    ternary main_v62 main_v63 main_v61 main_v64 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v65 (broadcastInDim S1x128 ![1] bcast_S128_S1x128_1 : (⟨S128, .f32⟩ : BufTy).Contents (Elt F) → (⟨S1x128, .f32⟩ : BufTy).Contents (Elt F)),
    unary main_v65 main_v66 (broadcastInDim S50000x128 ![0, 1] bcast_S1x128_S50000x128_0_1 : (⟨S1x128, .f32⟩ : BufTy).Contents (Elt F) → (⟨S50000x128, .f32⟩ : BufTy).Contents (Elt F)),
    binary main_v64 main_v66 main_v67 (addf : (⟨S50000x128, .f32⟩ : BufTy).Contents (Elt F) → (⟨S50000x128, .f32⟩ : BufTy).Contents (Elt F) → (⟨S50000x128, .f32⟩ : BufTy).Contents (Elt F)),
    nullary main_call2_cst (constant S_ .f32 0x00000000#32),
    unary main_call2_cst main_call2_v0 (broadcastInDim S50000x128 ![] bcast_S_S50000x128 : (⟨S_, .f32⟩ : BufTy).Contents (Elt F) → (⟨S50000x128, .f32⟩ : BufTy).Contents (Elt F)),
    binary main_v67 main_call2_v0 main_v68 (maximumf : (⟨S50000x128, .f32⟩ : BufTy).Contents (Elt F) → (⟨S50000x128, .f32⟩ : BufTy).Contents (Elt F) → (⟨S50000x128, .f32⟩ : BufTy).Contents (Elt F)) ]

/-- The buffers those operations write. -/
def layer2Written : List (Ref sig .tc) := [main_v51, main_c_10, main_v52, main_v53, main_c_11, main_v54, main_v55, main_v56, main_v57, main_v58, main_v59, main_v60, main_v61, main_cst_12, main_v62, main_v63, main_v64, main_v65, main_v66, main_v67, main_call2_cst, main_call2_v0, main_v68]

theorem layer2Ops_writes : (layer2Ops (F := F)).Forall fun op => op.writes ⊆ (layer2Written.map (Proc.devRef (τ := τ) .tc)).toFinset := by
  simp only [layer2Ops, List.Forall, nullary_writes, unary_writes, binary_writes, ternary_writes, reshape_writes, Finset.singleton_subset_iff, List.mem_toFinset]
  repeat' apply And.intro
  all_goals exact List.mem_map_of_mem (by decide)

/-- A buffer they do not write keeps its contents. -/
theorem layer2_kept (V : Valuation τ sig (Elt F)) {r : Ref sig .tc} (hr : r ∉ layer2Written) :
    after layer2Ops V (Proc.devRef .tc r) = V (Proc.devRef .tc r) := after_of_writes_sub layer2Ops V layer2Ops_writes hr

/-- Operations 90–109: the third layer up to its bias. -/
def layer3Ops : List (HloOp τ sig (Elt F)) :=
  [ binary main_v68 main_arg6 main_v69 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_13 (constantI S_ 32 0#32),
    unary main_c_13 main_v70 (broadcastInDim S850000 ![] bcast_S_S850000 : (⟨S_, .i32⟩ : BufTy).Contents (Elt F) → (⟨S850000, .i32⟩ : BufTy).Contents (Elt F)),
    binary main_v3 main_v70 main_v71 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v72 (broadcastInDim S850000 ![] bcast_S_S850000 : (⟨S_, .i32⟩ : BufTy).Contents (Elt F) → (⟨S850000, .i32⟩ : BufTy).Contents (Elt F)),
    binary main_v3 main_v72 main_v73 (addi : (⟨S850000, .i32⟩ : BufTy).Contents (Elt F) → (⟨S850000, .i32⟩ : BufTy).Contents (Elt F) → (⟨S850000, .i32⟩ : BufTy).Contents (Elt F)),
    ternary main_v71 main_v73 main_v3 main_v74 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v74 main_v75 (broadcastInDim S850000x1 ![0] bcast_S850000_S850000x1_0 : (⟨S850000, .i32⟩ : BufTy).Contents (Elt F) → (⟨S850000x1, .i32⟩ : BufTy).Contents (Elt F)),
    binary main_v69 main_v75 main_v76 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v32 main_v77 (broadcastInDim S850000x1 ![0] bcast_S850000_S850000x1_0 : (⟨S850000, .f32⟩ : BufTy).Contents (Elt F) → (⟨S850000x1, .f32⟩ : BufTy).Contents (Elt F)),
    unary main_v77 main_v78 (broadcastInDim S850000x64 ![0, 1] bcast_S850000x1_S850000x64_0_1 : (⟨S850000x1, .f32⟩ : BufTy).Contents (Elt F) → (⟨S850000x64, .f32⟩ : BufTy).Contents (Elt F)),
    binary main_v76 main_v78 main_v79 (mulf : (⟨S850000x64, .f32⟩ : BufTy).Contents (Elt F) → (⟨S850000x64, .f32⟩ : BufTy).Contents (Elt F) → (⟨S850000x64, .f32⟩ : BufTy).Contents (Elt F)),
    nullary main_cst_15 (constant S_ .f32 0x00000000#32),
    unary main_cst_15 main_v80 (broadcastInDim S50000x64 ![] bcast_S_S50000x64 : (⟨S_, .f32⟩ : BufTy).Contents (Elt F) → (⟨S50000x64, .f32⟩ : BufTy).Contents (Elt F)),
    unary main_v7 main_v81 (broadcastInDim S850000x1 ![0] bcast_S850000_S850000x1_0 : (⟨S850000, .i32⟩ : BufTy).Contents (Elt F) → (⟨S850000x1, .i32⟩ : BufTy).Contents (Elt F)),
    ternary main_v80 main_v81 main_v79 main_v82 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg7 main_v83 (broadcastInDim S1x64 ![1] bcast_S64_S1x64_1 : (⟨S64, .f32⟩ : BufTy).Contents (Elt F) → (⟨S1x64, .f32⟩ : BufTy).Contents (Elt F)),
    unary main_v83 main_v84 (broadcastInDim S50000x64 ![0, 1] bcast_S1x64_S50000x64_0_1 : (⟨S1x64, .f32⟩ : BufTy).Contents (Elt F) → (⟨S50000x64, .f32⟩ : BufTy).Contents (Elt F)),
    binary main_v82 main_v84 main_v85 (addf : (⟨S50000x64, .f32⟩ : BufTy).Contents (Elt F) → (⟨S50000x64, .f32⟩ : BufTy).Contents (Elt F) → (⟨S50000x64, .f32⟩ : BufTy).Contents (Elt F)) ]

/-- The buffers those operations write. -/
def layer3Written : List (Ref sig .tc) := [main_v69, main_c_13, main_v70, main_v71, main_c_14, main_v72, main_v73, main_v74, main_v75, main_v76, main_v77, main_v78, main_v79, main_cst_15, main_v80, main_v81, main_v82, main_v83, main_v84, main_v85]

theorem layer3Ops_writes : (layer3Ops (F := F)).Forall fun op => op.writes ⊆ (layer3Written.map (Proc.devRef (τ := τ) .tc)).toFinset := by
  simp only [layer3Ops, List.Forall, nullary_writes, unary_writes, binary_writes, ternary_writes, reshape_writes, Finset.singleton_subset_iff, List.mem_toFinset]
  repeat' apply And.intro
  all_goals exact List.mem_map_of_mem (by decide)

/-- A buffer they do not write keeps its contents. -/
theorem layer3_kept (V : Valuation τ sig (Elt F)) {r : Ref sig .tc} (hr : r ∉ layer3Written) :
    after layer3Ops V (Proc.devRef .tc r) = V (Proc.devRef .tc r) := after_of_writes_sub layer3Ops V layer3Ops_writes hr

/-- Operations 110–124: the row-wise log-softmax. -/
def softmaxOps : List (HloOp τ sig (Elt F)) :=
  [ TRef.nullary (TRef.of (T := ⟨S_, .f32⟩) main_call3_cst) (constant S_ .f32 0xFF800000#32),
    TRef.binary (TRef.of (T := ⟨S50000x64, .f32⟩) main_v85) (TRef.of (T := ⟨S_, .f32⟩) main_call3_cst) (TRef.of (T := ⟨S50000, .f32⟩) main_call3_v0) (fun x v => Host.reduce FloatOps.maximumf x v reducesTo_S50000x64_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x64, .f32⟩) main_call3_v4) (broadcastInDim S50000x64 ![0, 1] bcast_S50000x1_S50000x64_0_1),
    TRef.binary (TRef.of (T := ⟨S50000x64, .f32⟩) main_v85) (TRef.of (T := ⟨S50000x64, .f32⟩) main_call3_v4) (TRef.of (T := ⟨S50000x64, .f32⟩) main_call3_v5) subf,
    TRef.unary (TRef.of (T := ⟨S50000x64, .f32⟩) main_call3_v5) (TRef.of (T := ⟨S50000x64, .f32⟩) main_call3_v6) Host.exp,
    TRef.nullary (TRef.of (T := ⟨S_, .f32⟩) main_call3_cst_1) (constant S_ .f32 0x00000000#32),
    TRef.binary (TRef.of (T := ⟨S50000x64, .f32⟩) main_call3_v6) (TRef.of (T := ⟨S_, .f32⟩) main_call3_cst_1) (TRef.of (T := ⟨S50000, .f32⟩) main_call3_v7) (fun x v => Host.reduceAdd x v reducesTo_S50000x64_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x64, .f32⟩) main_call3_v10) (broadcastInDim S50000x64 ![0, 1] bcast_S50000x1_S50000x64_0_1),
    TRef.binary (TRef.of (T := ⟨S50000x64, .f32⟩) main_call3_v5) (TRef.of (T := ⟨S50000x64, .f32⟩) main_call3_v10) (TRef.of (T := ⟨S50000x64, .f32⟩) main_v86) subf ]

/-- The buffers those operations write. -/
def softmaxWritten : List (Ref sig .tc) := [main_call3_cst, main_call3_v0, main_call3_cst_0, main_call3_v1, main_call3_v2, main_call3_v3, main_call3_v4, main_call3_v5, main_call3_v6, main_call3_cst_1, main_call3_v7, main_call3_v8, main_call3_v9, main_call3_v10, main_v86]

theorem softmaxOps_writes : (softmaxOps (F := F)).Forall fun op => op.writes ⊆ (softmaxWritten.map (Proc.devRef (τ := τ) .tc)).toFinset := by
  simp only [softmaxOps, List.Forall, nullary_writes, unary_writes, binary_writes, ternary_writes, reshape_writes, Finset.singleton_subset_iff, List.mem_toFinset]
  repeat' apply And.intro
  all_goals exact List.mem_map_of_mem (by decide)

/-- A buffer they do not write keeps its contents. -/
theorem softmax_kept (V : Valuation τ sig (Elt F)) {r : Ref sig .tc} (hr : r ∉ softmaxWritten) :
    after softmaxOps V (Proc.devRef .tc r) = V (Proc.devRef .tc r) := after_of_writes_sub softmaxOps V softmaxOps_writes hr

/-! ## Each stretch read, from ANY contents `V` it starts at -/

theorem edge_source (V : Valuation τ sig (Elt Ideal)) :
    after edgeOps V (Proc.devRef .tc main_v3) = edgeSource (F := Ideal) (V (Proc.devRef .tc main_arg1)) := by
  unfold edgeOps
  after_results
  rfl

theorem edge_target (V : Valuation τ sig (Elt Ideal)) :
    after edgeOps V (Proc.devRef .tc main_v7) = edgeTarget (F := Ideal) (V (Proc.devRef .tc main_arg1)) := by
  unfold edgeOps
  after_results
  rfl

set_option maxHeartbeats 40000000 in
theorem nodeWeight_read (V : Valuation τ sig (Elt Ideal)) :
    after nodeWeightOps V (Proc.devRef .tc main_v17)
      = nodeWeight (F := Ideal) (V (Proc.devRef .tc main_v7)) := by
  unfold nodeWeightOps
  after_results_simp
  unfold nodeWeight degree
  rfl

set_option maxHeartbeats 40000000 in
theorem edgeWeight_read (V : Valuation τ sig (Elt Ideal)) :
    after edgeWeightOps V (Proc.devRef .tc main_v32)
      = mulf (F := Ideal) (φ := .f32) (Host.gather gather_S50000_S850000x1_S850000_n_0_n_n_0_1_1 (V (Proc.devRef .tc main_v17)) (rowColumn (F := Ideal) (V (Proc.devRef .tc main_v3))))
          (Host.gather gather_S50000_S850000x1_S850000_n_0_n_n_0_1_1 (V (Proc.devRef .tc main_v17)) (rowColumn (F := Ideal) (V (Proc.devRef .tc main_v7)))) := by
  unfold edgeWeightOps
  after_results_simp
  unfold rowColumn
  rfl

set_option maxHeartbeats 40000000 in
theorem layer1_read (V : Valuation τ sig (Elt Ideal)) :
    after layer1Ops V (Proc.devRef .tc main_v50)
      = rectified (addf (F := Ideal) (φ := .f32) (aggregate128 (Host.dotGeneral (φ₁ := .f32) (φ₂ := .f32) dot_S50000x512_S512x128_S50000x128_1_0_0_1_n_n none (V (Proc.devRef .tc main_arg0)) (V (Proc.devRef .tc main_arg2)))
          (V (Proc.devRef .tc main_v3)) (V (Proc.devRef .tc main_v7)) (broadcastInDim S850000x1 ![0] Facts₀.bcast_S850000_S850000x1_0 (V (Proc.devRef .tc main_v32))))
          (biasRows128 (V (Proc.devRef .tc main_arg3)))) := by
  unfold layer1Ops
  after_results_simp
  unfold rectified aggregate128 biasRows128 rowColumn
  rfl

set_option maxHeartbeats 40000000 in
theorem layer2_read (V : Valuation τ sig (Elt Ideal)) :
    after layer2Ops V (Proc.devRef .tc main_v68)
      = rectified (addf (F := Ideal) (φ := .f32) (aggregate128 (Host.dotGeneral (φ₁ := .f32) (φ₂ := .f32) dot_S50000x128_S128x128_S50000x128_1_0_0_1_n_n none (V (Proc.devRef .tc main_v50)) (V (Proc.devRef .tc main_arg4)))
          (V (Proc.devRef .tc main_v3)) (V (Proc.devRef .tc main_v7)) (broadcastInDim S850000x1 ![0] Facts₀.bcast_S850000_S850000x1_0 (V (Proc.devRef .tc main_v32))))
          (biasRows128 (V (Proc.devRef .tc main_arg5)))) := by
  unfold layer2Ops
  after_results_simp
  unfold rectified aggregate128 biasRows128 rowColumn
  rfl

set_option maxHeartbeats 40000000 in
theorem layer3_read (V : Valuation τ sig (Elt Ideal)) :
    after layer3Ops V (Proc.devRef .tc main_v85)
      = addf (F := Ideal) (φ := .f32) (aggregate64 (Host.dotGeneral (φ₁ := .f32) (φ₂ := .f32) dot_S50000x128_S128x64_S50000x64_1_0_0_1_n_n none (V (Proc.devRef .tc main_v68)) (V (Proc.devRef .tc main_arg6)))
          (V (Proc.devRef .tc main_v3)) (V (Proc.devRef .tc main_v7)) (broadcastInDim S850000x1 ![0] Facts₀.bcast_S850000_S850000x1_0 (V (Proc.devRef .tc main_v32))))
          (biasRows64 (V (Proc.devRef .tc main_arg7))) := by
  unfold layer3Ops
  after_results_simp
  unfold aggregate64 biasRows64 rowColumn
  rfl

set_option maxHeartbeats 40000000 in
theorem softmax_read (V : Valuation τ sig (Elt Ideal)) :
    after softmaxOps V (Proc.devRef .tc main_v86)
      = logSoftmax64 (V (Proc.devRef .tc main_v85)) := by
  unfold softmaxOps
  after_results
  simp only [Cert.HostLine.ofBuf_toBuf]
  unfold logSoftmax64 Cert.HostRows.logSoftmax Cert.HostRows.shifted Cert.HostRows.rowMaxima
  rfl

/-! ## The whole line: the stretches one after the other -/

/-- @main's 125 operations are the seven stretches in order (an outlined call's operations, printed over typed
    references, are the same operations over the buffers themselves). -/
theorem cut1 : (GenP.ops (F := Ideal)).take 8 = edgeOps := rfl
theorem cut2 : ((GenP.ops (F := Ideal)).drop 8).take 17 = nodeWeightOps := rfl
theorem cut3 : ((GenP.ops (F := Ideal)).drop (8 + 17)).take 19 = edgeWeightOps := rfl
theorem cut4 : ((GenP.ops (F := Ideal)).drop (8 + 17 + 19)).take 23 = layer1Ops := rfl
theorem cut5 : ((GenP.ops (F := Ideal)).drop (8 + 17 + 19 + 23)).take 23 = layer2Ops := rfl
theorem cut6 : ((GenP.ops (F := Ideal)).drop (8 + 17 + 19 + 23 + 23)).take 20 = layer3Ops := rfl
theorem cut7 : (GenP.ops (F := Ideal)).drop (8 + 17 + 19 + 23 + 23 + 20) = softmaxOps := rfl

/-- The whole line run from `V` is the stretches run one after the other. -/
theorem after_ops (V : Valuation τ sig (Elt Ideal)) :
    after (GenP.ops (F := Ideal)) V
      = after softmaxOps (after layer3Ops (after layer2Ops (after layer1Ops (after edgeWeightOps (after nodeWeightOps (after edgeOps V)))))) := by
  rw [Cert.HostLine.after_split 8 (GenP.ops (F := Ideal)) V, cut1,
    Cert.HostLine.after_split 17 ((GenP.ops (F := Ideal)).drop 8), cut2, List.drop_drop,
    Cert.HostLine.after_split 19 ((GenP.ops (F := Ideal)).drop (8 + 17)), cut3, List.drop_drop,
    Cert.HostLine.after_split 23 ((GenP.ops (F := Ideal)).drop (8 + 17 + 19)), cut4, List.drop_drop,
    Cert.HostLine.after_split 23 ((GenP.ops (F := Ideal)).drop (8 + 17 + 19 + 23)), cut5, List.drop_drop,
    Cert.HostLine.after_split 20 ((GenP.ops (F := Ideal)).drop (8 + 17 + 19 + 23 + 23)), cut6, List.drop_drop, cut7]

/-- A buffer no stretch writes ends as it started. -/
theorem ops_kept (V : Valuation τ sig (Elt Ideal)) {r : Ref sig .tc} (h1 : r ∉ edgeWritten) (h2 : r ∉ nodeWeightWritten)
    (h3 : r ∉ edgeWeightWritten) (h4 : r ∉ layer1Written) (h5 : r ∉ layer2Written) (h6 : r ∉ layer3Written) (h7 : r ∉ softmaxWritten) :
    after (GenP.ops (F := Ideal)) V (Proc.devRef .tc r) = V (Proc.devRef .tc r) := by
  rw [after_ops, softmax_kept _ h7, layer3_kept _ h6, layer2_kept _ h5, layer1_kept _ h4, edgeWeight_kept _ h3, nodeWeight_kept _ h2, edge_kept _ h1]

/-- THE RESULT: what the line leaves in the result buffer is the network of the eight arguments as the line finds them. -/
theorem result_eq (V : Valuation τ sig (Elt Ideal)) :
    after (GenP.ops (F := Ideal)) V (Proc.devRef .tc main_v86)
      = network (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_ops, softmax_read, layer3_read]
  -- the third layer's inputs, back through the second layer
  rw [layer2_kept _ (r := main_arg6) (by decide), layer2_kept _ (r := main_arg7) (by decide), layer2_kept _ (r := main_v3) (by decide),
    layer2_kept _ (r := main_v7) (by decide), layer2_kept _ (r := main_v32) (by decide), layer2_read]
  -- the second and third layers' inputs, back through the first layer
  rw [layer1_kept _ (r := main_arg4) (by decide), layer1_kept _ (r := main_arg5) (by decide), layer1_kept _ (r := main_arg6) (by decide),
    layer1_kept _ (r := main_arg7) (by decide), layer1_kept _ (r := main_v3) (by decide), layer1_kept _ (r := main_v7) (by decide),
    layer1_kept _ (r := main_v32) (by decide), layer1_read]
  -- back through the edge weights
  rw [edgeWeight_kept _ (r := main_arg0) (by decide), edgeWeight_kept _ (r := main_arg2) (by decide), edgeWeight_kept _ (r := main_arg3) (by decide),
    edgeWeight_kept _ (r := main_arg4) (by decide), edgeWeight_kept _ (r := main_arg5) (by decide), edgeWeight_kept _ (r := main_arg6) (by decide),
    edgeWeight_kept _ (r := main_arg7) (by decide), edgeWeight_kept _ (r := main_v3) (by decide), edgeWeight_kept _ (r := main_v7) (by decide),
    edgeWeight_read]
  -- back through the node weights
  rw [nodeWeight_kept _ (r := main_arg0) (by decide), nodeWeight_kept _ (r := main_arg2) (by decide), nodeWeight_kept _ (r := main_arg3) (by decide),
    nodeWeight_kept _ (r := main_arg4) (by decide), nodeWeight_kept _ (r := main_arg5) (by decide), nodeWeight_kept _ (r := main_arg6) (by decide),
    nodeWeight_kept _ (r := main_arg7) (by decide), nodeWeight_kept _ (r := main_v3) (by decide), nodeWeight_kept _ (r := main_v7) (by decide),
    nodeWeight_read]
  -- back through the edges
  rw [edge_kept _ (r := main_arg0) (by decide), edge_kept _ (r := main_arg2) (by decide), edge_kept _ (r := main_arg3) (by decide),
    edge_kept _ (r := main_arg4) (by decide), edge_kept _ (r := main_arg5) (by decide), edge_kept _ (r := main_arg6) (by decide),
    edge_kept _ (r := main_arg7) (by decide), edge_source, edge_target]
  unfold network logits hidden2 hidden1 weightColumn edgeWeight
  rfl

/-- THE RUN: every weakly fair execution of the reference's @main terminates with the result buffer at the network of
    the arguments as launched, and the arguments unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v86)
        = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v86).trans (result_eq (launchContents m c)),
      (h c main_arg0).trans (ops_kept (launchContents m c) (by decide) (by decide) (by decide) (by decide) (by decide) (by decide) (by decide)),
      (h c main_arg1).trans (ops_kept (launchContents m c) (by decide) (by decide) (by decide) (by decide) (by decide) (by decide) (by decide)),
      (h c main_arg2).trans (ops_kept (launchContents m c) (by decide) (by decide) (by decide) (by decide) (by decide) (by decide) (by decide)),
      (h c main_arg3).trans (ops_kept (launchContents m c) (by decide) (by decide) (by decide) (by decide) (by decide) (by decide) (by decide)),
      (h c main_arg4).trans (ops_kept (launchContents m c) (by decide) (by decide) (by decide) (by decide) (by decide) (by decide) (by decide)),
      (h c main_arg5).trans (ops_kept (launchContents m c) (by decide) (by decide) (by decide) (by decide) (by decide) (by decide) (by decide)),
      (h c main_arg6).trans (ops_kept (launchContents m c) (by decide) (by decide) (by decide) (by decide) (by decide) (by decide) (by decide)),
      (h c main_arg7).trans (ops_kept (launchContents m c) (by decide) (by decide) (by decide) (by decide) (by decide) (by decide) (by decide))⟩)
    (GenP.run_all m ρ)

end Cert.ReferenceIdeal.HostRead

end
-- ==== Proof.LibHostColumn.lean ====
/-
  A vector repeated into a matrix by the host's two broadcasts.

  The host repeats a vector along a new axis in two steps: it first gives the vector a unit axis (`broadcast_in_dim`
  of [n] into [n, 1] along dimension 0, or of [b] into [1, b] along dimension 1), then repeats the unit axis
  (`broadcast_in_dim` of [n, 1] or [1, b] into [n, b] along dimensions 0 and 1). Read at (p, k) the result is the
  vector at the coordinate it was laid along: the row `p` for a column, the column `k` for a row. A size-one axis
  of the operand is read at 0 whatever the result's coordinate, which is why the case of a vector of one entry needs
  no separate statement.
-/
import Idealize.ShloMosaic.Lib.Pipeline.Value
import Idealize.ShloMosaic.Lib.ValueIdx

namespace Idealize.ShloMosaic.HostColumn

open Idealize.ShloMosaic Idealize.ShloMosaic.ValueIdx

variable {α : Type}

/-- A vector of `n` entries kept as an [n, 1] column and that column repeated to [n, b], both by the host's
    `broadcast_in_dim`, reads the vector at the row. -/
theorem column_apply {n b : Nat} (x : (⟨1, ![n]⟩ : Shape).Idx → α)
    (b1 : (⟨1, ![n]⟩ : Shape).BroadcastsInDim ⟨2, ![n, 1]⟩ ![0])
    (b2 : (⟨2, ![n, 1]⟩ : Shape).BroadcastsInDim ⟨2, ![n, b]⟩ ![0, 1]) (p : Fin n) (k : Fin b) :
    broadcastInDim ⟨2, ![n, b]⟩ ![0, 1] b2 (broadcastInDim ⟨2, ![n, 1]⟩ ![0] b1 x) (ix2 p k) = x (ix1 p) := by
  refine (broadcastInDim_apply _ b2 _ (ix2 p k) (ix2 p (0 : Fin 1)) fun a => ?_).trans
    (broadcastInDim_apply _ b1 x (ix2 p (0 : Fin 1)) (ix1 p) fun a => ?_)
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

/-- A vector of `b` entries given a leading unit axis and repeated down `n` rows, both by the host's
    `broadcast_in_dim`, reads the vector at the column. -/
theorem row_apply {n b : Nat} (x : (⟨1, ![b]⟩ : Shape).Idx → α)
    (b3 : (⟨1, ![b]⟩ : Shape).BroadcastsInDim ⟨2, ![1, b]⟩ ![1])
    (b4 : (⟨2, ![1, b]⟩ : Shape).BroadcastsInDim ⟨2, ![n, b]⟩ ![0, 1]) (p : Fin n) (j : Fin b) :
    broadcastInDim ⟨2, ![n, b]⟩ ![0, 1] b4 (broadcastInDim ⟨2, ![1, b]⟩ ![1] b3 x) (ix2 p j) = x (ix1 j) := by
  refine (broadcastInDim_apply _ b4 _ (ix2 p j) (ix2 (0 : Fin 1) j) fun a => ?_).trans
    (broadcastInDim_apply _ b3 x (ix2 (0 : Fin 1) j) (ix1 j) fun a => ?_)
  · match a with
    | ⟨0, _⟩ => rfl
    | ⟨1, _⟩ =>
      show j.val = if b = 1 then 0 else j.val
      split
      · have := j.isLt; omega
      · rfl
  · match a with
    | ⟨0, _⟩ =>
      show j.val = if b = 1 then 0 else j.val
      split
      · have := j.isLt; omega
      · rfl

end Idealize.ShloMosaic.HostColumn
-- ==== Proof.NetworkBridge.lean ====
/-
  The two networks are one function.

  The kernel's network and the reference network are written over the same eight arguments, layer by layer: a product
  with the layer's weights, one round of message passing over the same edge list, the layer's bias added to every
  row, then the maximum with zero (twice) or the row-wise log-softmax (once). They differ in four spellings only:
    * the graph side is printed by each program over its own names for the same shapes, conditions and dimension
      records — the same functions;
    * the reference's product is the host's general contraction with a "rows times columns" record — the plain
      product `∑ k, a (r, k) · w (k, j)`;
    * the reference lays the bias along all 50000 rows before adding it and takes the maximum with a repeated zero,
      the kernel keeps the bias as one row — the same entry `max (a (r, k) + b k) 0`;
    * the reference's log-softmax is the host's chain of reductions and repeats, the kernel's is stated row by row —
      the same entry `(z q − M) − log Σ_k exp (z k − M)` with `M` the row's maximum from the −∞ word.
  Everything is over variable arrays; nothing is evaluated.
-/
import proofs.«128856_j5995774345733_1_alg».proof.Proof.KernelStages
import proofs.«128856_j5995774345733_1_alg».proof.Proof.ReferenceStages
import proofs.«128856_j5995774345733_1_alg».proof.Proof.LibRowsCols
import proofs.«128856_j5995774345733_1_alg».proof.Proof.LibHostColumn
import Idealize.ShloMosaic.Lib.ValueLayout

set_option maxRecDepth 16384

noncomputable section

namespace Cert.Bridge

open Idealize.ShloMosaic Idealize.ShloMosaic.ValueIdx

/-! ## The graph side: the same functions in the two programs' vocabularies

The two programs print the same host operations over shape names, side conditions and dimension records of their own.
The shape names unfold to the same shapes, the side conditions are proofs, and the records have the same data, so
each pair of functions is one function. -/

section Graph
variable (x1 : (⟨Cert.ReferenceIdeal.S2x800000, .i32⟩ : BufTy).Contents (Elt Ideal))
  (s d : (⟨Cert.ReferenceIdeal.S850000, .i32⟩ : BufTy).Contents (Elt Ideal))
  (w : (⟨Cert.ReferenceIdeal.S850000x1, .f32⟩ : BufTy).Contents (Elt Ideal))

/-- The message edges' sources. -/
theorem edgeSource_eq : Cert.KernelIdeal.HostValue.edgeSource (F := Ideal) x1 = Cert.ReferenceIdeal.HostValue.edgeSource (F := Ideal) x1 := rfl

/-- The message edges' targets. -/
theorem edgeTarget_eq : Cert.KernelIdeal.HostValue.edgeTarget (F := Ideal) x1 = Cert.ReferenceIdeal.HostValue.edgeTarget (F := Ideal) x1 := rfl

/-- Row numbers as a gather takes them. -/
theorem rowColumn_eq : Cert.KernelIdeal.HostValue.rowColumn (F := Ideal) s = Cert.ReferenceIdeal.HostValue.rowColumn (F := Ideal) s := rfl

/-- The degrees. -/
theorem degree_eq : Cert.KernelIdeal.HostValue.degree (F := Ideal) d = Cert.ReferenceIdeal.HostValue.degree (F := Ideal) d := rfl

/-- The edge weights. -/
theorem edgeWeight_eq : Cert.KernelIdeal.HostValue.edgeWeight (F := Ideal) s d = Cert.ReferenceIdeal.HostValue.edgeWeight (F := Ideal) s d := rfl

/-- The edge weights kept as one column. -/
theorem weightColumn_eq : Cert.KernelIdeal.HostValue.weightColumn (F := Ideal) s d = Cert.ReferenceIdeal.HostValue.weightColumn (F := Ideal) s d := rfl

/-- One round of message passing over 128 features. -/
theorem aggregate128_eq (h : (⟨Cert.ReferenceIdeal.S50000x128, .f32⟩ : BufTy).Contents (Elt Ideal)) :
    Cert.KernelIdeal.HostValue.aggregate128 (F := Ideal) h s d w = Cert.ReferenceIdeal.HostValue.aggregate128 (F := Ideal) h s d w := rfl

/-- One round of message passing over 64 features. -/
theorem aggregate64_eq (h : (⟨Cert.ReferenceIdeal.S50000x64, .f32⟩ : BufTy).Contents (Elt Ideal)) :
    Cert.KernelIdeal.HostValue.aggregate64 (F := Ideal) h s d w = Cert.ReferenceIdeal.HostValue.aggregate64 (F := Ideal) h s d w := rfl

end Graph

/-! ## The reference's products are plain products -/

/-- The first layer's record contracts the 512 columns of the left array with the 512 rows of the right one. -/
theorem rowsCols_512_128 : Cert.Dense.RowsCols Cert.ReferenceIdeal.dot_S50000x512_S512x128_S50000x128_1_0_0_1_n_n :=
  ⟨rfl, rfl, fun _ _ => rfl, fun _ _ => rfl, fun _ _ => rfl, fun _ _ => rfl⟩

/-- The second layer's record contracts 128 columns with 128 rows. -/
theorem rowsCols_128_128 : Cert.Dense.RowsCols Cert.ReferenceIdeal.dot_S50000x128_S128x128_S50000x128_1_0_0_1_n_n :=
  ⟨rfl, rfl, fun _ _ => rfl, fun _ _ => rfl, fun _ _ => rfl, fun _ _ => rfl⟩

/-- The output layer's record contracts 128 columns with 128 rows, into 64 columns. -/
theorem rowsCols_128_64 : Cert.Dense.RowsCols Cert.ReferenceIdeal.dot_S50000x128_S128x64_S50000x64_1_0_0_1_n_n :=
  ⟨rfl, rfl, fun _ _ => rfl, fun _ _ => rfl, fun _ _ => rfl, fun _ _ => rfl⟩

/-! ## Bias and rectifier -/

/-- The bias laid along every row and added, then the maximum with the repeated zero, is `hiddenRows` with the bias
    kept as one row: at (r, k) both are `max (a (r, k) + b k) 0`. -/
theorem rectified_eq (a : (⟨Cert.ReferenceIdeal.S50000x128, .f32⟩ : BufTy).Contents (Elt Ideal))
    (b : (⟨Cert.ReferenceIdeal.S128, .f32⟩ : BufTy).Contents (Elt Ideal)) :
    Cert.ReferenceIdeal.HostValue.rectified (addf (F := Ideal) (φ := .f32) a (Cert.ReferenceIdeal.HostValue.biasRows128 b))
      = Cert.Dense.hiddenRows a (Cert.KernelIdeal.HostValue.biasRow128 b) := by
  funext i
  obtain ⟨p, k, rfl⟩ : ∃ (p : Fin 50000) (k : Fin 128), i = ix2 p k := ⟨i 0, i 1, eq_ix2 i⟩
  rw [Cert.Dense.hiddenRows_apply]
  unfold Cert.ReferenceIdeal.HostValue.rectified Cert.ReferenceIdeal.HostValue.biasRows128 Cert.KernelIdeal.HostValue.biasRow128
  rw [maximumf_apply, addf_apply, HostColumn.row_apply, shapeCast_a_1a_apply]
  rfl

/-! ## Bias and log-softmax -/

/-- Dropping axis 1 of a [50000, 64] array leaves the 50000 rows. -/
theorem rows_of_64 : Cert.ReferenceIdeal.S50000x64.Reduces [1] Cert.ReferenceIdeal.S50000 := by decide

/-- The bias laid along every row and added, then the host's row-wise log-softmax, is `logSoftmaxRows` with the bias
    kept as one row: at (r, q) both are `(z q − M) − log Σ_k exp (z k − M)` for the row `z k = a (r, k) + b k`. -/
theorem logSoftmax64_eq (a : (⟨Cert.ReferenceIdeal.S50000x64, .f32⟩ : BufTy).Contents (Elt Ideal))
    (b : (⟨Cert.ReferenceIdeal.S64, .f32⟩ : BufTy).Contents (Elt Ideal)) :
    Cert.ReferenceIdeal.HostValue.logSoftmax64 (addf (F := Ideal) (φ := .f32) a (Cert.ReferenceIdeal.HostValue.biasRows64 b))
      = Cert.Dense.logSoftmaxRows a (Cert.KernelIdeal.HostValue.biasRow64 b) := by
  funext i
  obtain ⟨p, q, rfl⟩ : ∃ (p : Fin 50000) (q : Fin 64), i = ix2 p q := ⟨i 0, i 1, eq_ix2 i⟩
  have hz : ∀ k : Fin 64, addf (F := Ideal) (φ := .f32) a (Cert.ReferenceIdeal.HostValue.biasRows64 b) (ix2 p k)
      = Cert.Dense.biasedRow a (Cert.KernelIdeal.HostValue.biasRow64 b) p k := by
    intro k
    unfold Cert.Dense.biasedRow Cert.ReferenceIdeal.HostValue.biasRows64 Cert.KernelIdeal.HostValue.biasRow64
    rw [addf_apply, HostColumn.row_apply, shapeCast_a_1a_apply]
  rw [Cert.Dense.logSoftmaxRows_apply]
  unfold Cert.ReferenceIdeal.HostValue.logSoftmax64
  rw [Cert.HostRows.logSoftmax_apply _ rows_of_64 _ _ _ _ _ _ Ideal.ofBits_zero_f32]
  simp only [hz]
  rfl

/-! ## The layers and the network -/

section Layers
variable (x0 : (⟨Cert.ReferenceIdeal.S50000x512, .f32⟩ : BufTy).Contents (Elt Ideal))
  (x1 : (⟨Cert.ReferenceIdeal.S2x800000, .i32⟩ : BufTy).Contents (Elt Ideal))
  (x2 : (⟨Cert.ReferenceIdeal.S512x128, .f32⟩ : BufTy).Contents (Elt Ideal))
  (x3 : (⟨Cert.ReferenceIdeal.S128, .f32⟩ : BufTy).Contents (Elt Ideal))
  (x4 : (⟨Cert.ReferenceIdeal.S128x128, .f32⟩ : BufTy).Contents (Elt Ideal))
  (x5 : (⟨Cert.ReferenceIdeal.S128, .f32⟩ : BufTy).Contents (Elt Ideal))
  (x6 : (⟨Cert.ReferenceIdeal.S128x64, .f32⟩ : BufTy).Contents (Elt Ideal))
  (x7 : (⟨Cert.ReferenceIdeal.S64, .f32⟩ : BufTy).Contents (Elt Ideal))
  (h : (⟨Cert.ReferenceIdeal.S50000x128, .f32⟩ : BufTy).Contents (Elt Ideal))

/-- The first hidden layer. -/
theorem hidden1_eq : Cert.KernelIdeal.HostValue.hidden1 x0 x1 x2 x3 = Cert.ReferenceIdeal.HostValue.hidden1 x0 x1 x2 x3 := by
  unfold Cert.KernelIdeal.HostValue.hidden1 Cert.ReferenceIdeal.HostValue.hidden1
  rw [rectified_eq, Cert.Dense.dotGeneral_eq rowsCols_512_128, aggregate128_eq, weightColumn_eq, edgeSource_eq, edgeTarget_eq]

/-- The second hidden layer, from the same input. -/
theorem hidden2_eq : Cert.KernelIdeal.HostValue.hidden2 h x1 x4 x5 = Cert.ReferenceIdeal.HostValue.hidden2 h x1 x4 x5 := by
  unfold Cert.KernelIdeal.HostValue.hidden2 Cert.ReferenceIdeal.HostValue.hidden2
  rw [rectified_eq, Cert.Dense.dotGeneral_eq rowsCols_128_128, aggregate128_eq, weightColumn_eq, edgeSource_eq, edgeTarget_eq]

/-- The output layer, from the same input. -/
theorem logits_eq : Cert.KernelIdeal.HostValue.logits h x1 x6 x7 = Cert.ReferenceIdeal.HostValue.logits h x1 x6 x7 := by
  unfold Cert.KernelIdeal.HostValue.logits Cert.ReferenceIdeal.HostValue.logits
  rw [logSoftmax64_eq, Cert.Dense.dotGeneral_eq rowsCols_128_64, aggregate64_eq, weightColumn_eq, edgeSource_eq, edgeTarget_eq]

/-- THE TWO NETWORKS ARE ONE FUNCTION of the eight arguments. -/
theorem network_eq : Cert.KernelIdeal.HostValue.network x0 x1 x2 x3 x4 x5 x6 x7
    = Cert.ReferenceIdeal.HostValue.network x0 x1 x2 x3 x4 x5 x6 x7 := by
  unfold Cert.KernelIdeal.HostValue.network Cert.ReferenceIdeal.HostValue.network
  rw [hidden1_eq, hidden2_eq, logits_eq]

end Layers

end Cert.Bridge

end
-- ==== Proof.lean ====
/-
  Three layers of a graph convolutional network on 50000 nodes and 850000 message edges (the 800000 listed edges
  and a loop at every node), the kernel program against its reference, on the extended reals.

  A layer multiplies the node features by its weight matrix, sends every product row along the message edges —
  gathered at the edge's source, scaled by the edge's weight (the product of its two ends' `1/√degree`), added into
  the edge's target — and adds the layer's bias; the two hidden layers then take the maximum with zero, the output
  layer the row-wise log-softmax. The kernel program computes each dense piece in a grid region over blocks of
  2000 rows: the product of a block of rows by the whole weight matrix is that block of rows of the whole product;
  bias, rectifier and log-softmax act on each row by itself; so each region leaves its output array at one
  function of its two whole input arrays. The graph pieces are the same host operations in both programs. A
  change of float format is the identity on the extended reals, a matrix unit's product into a zero accumulator
  and the host's contraction are the same sum of the same products in the same order, and the kernel's lane
  reductions and the host's reductions are the same fold and the same sum; the host takes a row's maximum once more
  against −∞, which changes nothing. So both programs end at ONE function of the eight arguments
  (`Cert.Bridge.network_eq`), and no law that needs finite entries is used: the precondition is never opened.

  The frames of the two kernel programs are the generated ones; the reference's frame is its run with the result
  dropped; the idealization rewrote no operation, so `preserves` is `True`.
-/
import proofs.«128856_j5995774345733_1_alg».proof.Defs
import proofs.«128856_j5995774345733_1_alg».proof.Proof.Gen.Kernel
import proofs.«128856_j5995774345733_1_alg».proof.Proof.Gen.Kernel.Skeleton
import proofs.«128856_j5995774345733_1_alg».proof.Proof.Gen.Kernel.Launch
import proofs.«128856_j5995774345733_1_alg».proof.Proof.Gen.Kernel.Points
import proofs.«128856_j5995774345733_1_alg».proof.Proof.Gen.Kernel.Frame
import proofs.«128856_j5995774345733_1_alg».proof.Proof.Gen.KernelIdeal
import proofs.«128856_j5995774345733_1_alg».proof.Proof.Gen.KernelIdeal.Skeleton
import proofs.«128856_j5995774345733_1_alg».proof.Proof.Gen.KernelIdeal.Launch
import proofs.«128856_j5995774345733_1_alg».proof.Proof.Gen.KernelIdeal.Points
import proofs.«128856_j5995774345733_1_alg».proof.Proof.Gen.KernelIdeal.Frame
import proofs.«128856_j5995774345733_1_alg».proof.Proof.Gen.ReferenceIdeal
import proofs.«128856_j5995774345733_1_alg».proof.Proof.Gen.Pre_finite_inputs
import Idealize.ShloMosaic.Adequacy
import Idealize.ShloMosaic.Init
import proofs.«128856_j5995774345733_1_alg».proof.Proof.KernelFold
import proofs.«128856_j5995774345733_1_alg».proof.Proof.ReferenceRead
import proofs.«128856_j5995774345733_1_alg».proof.Proof.NetworkBridge

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.HostRead.run_result m ρ)

/-- From memories that agree on the arguments both programs end at the network's value of those arguments. -/
theorem algebraic : Cert.algebraic_KernelIdeal_ReferenceIdeal := by
  intro m ρ m' ρ' _ hagree
  refine ⟨fun c => Cert.KernelIdeal.HostValue.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.RunValue.run_network m ρ, ?_⟩
  refine (θ_run Cert.ReferenceIdeal.defs _ _).mono (fun _ h c => ⟨(h c).1.trans ?_, (h c).2⟩) (Cert.ReferenceIdeal.HostRead.run_result m' ρ')
  obtain ⟨a0, a1, a2, a3, a4, a5, a6, a7⟩ := hagree c
  rw [a0, a1, a2, a3, a4, a5, a6, a7]
  exact (Cert.Bridge.network_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
